-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) (main_arg3 : IVec S16x2048x2048 1) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S16x2048x2048 : Shape := ⟨3, ![16, 2048, 2048]⟩
abbrev S1x2048x128 : Shape := ⟨3, ![1, 2048, 128]⟩
abbrev S1x512x128 : Shape := ⟨3, ![1, 512, 128]⟩
abbrev S1x2048x512 : Shape := ⟨3, ![1, 2048, 512]⟩
abbrev S2048x1 : Shape := ⟨2, ![2048, 1]⟩
abbrev S2048x128 : Shape := ⟨2, ![2048, 128]⟩
abbrev S512x128 : Shape := ⟨2, ![512, 128]⟩
abbrev S2048x512 : Shape := ⟨2, ![2048, 512]⟩
abbrev S2048 : Shape := ⟨1, ![2048]⟩

abbrev nBuf : Space → Nat
  | .hbm => 6
  | .vmem => 13
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .i32⟩
  | .hbm, ⟨5, _⟩ => ⟨S16x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x2048x512, .i32⟩
  | .local _ .vmem, ⟨7, _⟩ => ⟨S1x2048x512, .i32⟩
  | .local _ .vmem, ⟨8, _⟩ => ⟨S1x2048x128, .f32⟩
  | .local _ .vmem, ⟨9, _⟩ => ⟨S1x2048x128, .f32⟩
  | .local _ .vmem, ⟨10, _⟩ => ⟨S2048x1, .f32⟩
  | .local _ .vmem, ⟨11, _⟩ => ⟨S2048x1, .f32⟩
  | .local _ .vmem, ⟨12, _⟩ => ⟨S2048x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v51 : BitVec 1 := Scalar.cmpi .eq arg1 c3_i32
  let v52 : BitVec 32 := Scalar.extui v51
  let c0_i32_31 : BitVec 32 := 0#32
  let v53 : BitVec 1 := Scalar.cmpi .ne v52 c0_i32_31
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  natLt_1_32 : 1 < 32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x128 : S2048x1.Broadcasts S2048x128
  shapeCasts_S2048x128_S1x2048x128 : S2048x128.ShapeCasts S1x2048x128
  dot_S2048x128_S512x128_S2048x512_1_1_0_0_n_n_wf : DotDims.WF S2048x128 S512x128 S2048x512 [1] [1] [0] [0] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S16x2048x128.size a
  hwx0_0 : ∀ i : grid0.Coords, EltTy.bits .f32 = 32 ∨ (Rect.block (s := S16x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S16x2048x128.size a
  hwx0_1 : ∀ i : grid0.Coords, EltTy.bits .f32 = 32 ∨ (Rect.block (s := S16x2048x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S16x2048x128.size a
  hwx0_2 : ∀ i : grid0.Coords, EltTy.bits .f32 = 32 ∨ (Rect.block (s := S16x2048x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S16x2048x2048.size a
  hwx0_3 : ∀ i : grid0.Coords, EltTy.bits .i32 = 32 ∨ (Rect.block (s := S16x2048x2048) S1x2048x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S16x2048x128.size a
  hwx0_4 : ∀ i : grid0.Coords, EltTy.bits .f32 = 32 ∨ (Rect.block (s := S16x2048x128) S1x2048x128.size (cc0_transform_4 i) (hinb0_4 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S_, .f32⟩
  | .hbm, ⟨27, _⟩ => ⟨S16x2048x2048, .f32⟩
  | .hbm, ⟨28, _⟩ => ⟨S16x2048x2048, .f32⟩
  | .hbm, ⟨29, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Pieces.lean ====
/-
  What each control case of the kernel body leaves in the three buffers it carries from one key tile to
  the next (the running row maxima, normalizers and weighted sums) and, at a batch's last tile, in the
  output block: the covering store's value, as ONE function of the point's four input blocks and of what
  the carried buffers held.
-/
import proofs.«142846_j39676907883517_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Stream

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running row maxima after one more key tile: the old maxima against the tile's row maxima of the scaled scores. -/
def nextMax (x0 : Vec F S1x2048x128 .f32) (x1 : Vec F S1x512x128 .f32) (mx : Vec F S2048x1 .f32) : Vec F S2048x1 .f32 :=
  k0_pay2 (k0_pay11 x0 x1 mx)

/-- The running normalizers after one more key tile: the old ones rescaled to the new maxima, plus the tile's row sums of exponentials. -/
def nextNorm (x0 : Vec F S1x2048x128 .f32) (x1 : Vec F S1x512x128 .f32) (mx nm : Vec F S2048x1 .f32) : Vec F S2048x1 .f32 :=
  k0_pay3 (k0_pay14 x0 x1 mx nm)

/-- The running weighted sums after one more key tile: the old ones rescaled, plus the tile's masked, rescaled exponentials times the value rows. -/
def nextAcc (x0 : Vec F S1x2048x128 .f32) (x1 x2 : Vec F S1x512x128 .f32) (x3 : Vec F S1x2048x512 .i32)
    (mx : Vec F S2048x1 .f32) (ac : Vec F S2048x128 .f32) : Vec F S2048x128 .f32 :=
  k0_pay1 (k0_pay8 x2) (k0_pay9 x3) (k0_pay12 x0 x1 mx) (k0_pay13 x0 x1 mx) (k0_pay15 (F := F)) ac

/-- The output block: the weighted sums divided, row by row, by the normalizers. -/
def quotient (ac : Vec F S2048x128 .f32) (nm : Vec F S2048x1 .f32) : Vec F S1x2048x128 .f32 :=
  k0_pay4 ac nm

/-- The values the three carried buffers are reset to before a batch's first tile: -∞, 0 and 0. -/
abbrev resetMax : Vec F S2048x1 .f32 := k0_pay5 (F := F)
abbrev resetNorm : Vec F S2048x1 .f32 := k0_pay6 (F := F)
abbrev resetAcc : Vec F S2048x128 .f32 := k0_pay7 (F := F)

/-! ## Case A: a batch's first tile — the three buffers are reset first, then updated -/

theorem sout_A_0 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .i32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x512x128 .f32) (x2 : Vec F S1x512x128 .f32) (x3 : Vec F S1x2048x512 .i32) :
    sout0_A_0 c i arg2 harg2 arg3 harg3 arg4 harg4 arg5 harg5 arg6 harg6 arg7 harg7 arg8 harg8 arg9 harg9 hc0 hc1 x0 x1 x2 x3 = nextMax x0 x1 resetMax := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x1) hz2]
  simp only [View.readCov_unit_zero (S := S2048x1) _ hz2, View.readCov_unit_zero (S := S2048x128) _ hz2, View.readAt_eq_ld, harg2.read_unread, harg3.read_unread, harg4.read_unread, harg5.read_unread, harg6.read_unread, harg7.read_unread, harg8.read_unread, harg9.read_unread, View.ld_unit_zero (S := S1x2048x128) hz3, View.ld_unit_zero (S := S1x512x128) hz3, View.ld_unit_zero (S := S1x2048x512) hz3, View.ld_unit_zero (S := S2048x1) hz2, View.ld_unit_zero (S := S2048x128) hz2]
  rfl

theorem sout_A_1 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .i32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x512x128 .f32) (x2 : Vec F S1x512x128 .f32) (x3 : Vec F S1x2048x512 .i32) :
    sout0_A_1 c i arg2 harg2 arg3 harg3 arg4 harg4 arg5 harg5 arg6 harg6 arg7 harg7 arg8 harg8 arg9 harg9 hc0 hc1 x0 x1 x2 x3 = nextNorm x0 x1 resetMax resetNorm := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x1) hz2]
  simp only [View.readCov_unit_zero (S := S2048x1) _ hz2, View.readCov_unit_zero (S := S2048x128) _ hz2, View.readAt_eq_ld, harg2.read_unread, harg3.read_unread, harg4.read_unread, harg5.read_unread, harg6.read_unread, harg7.read_unread, harg8.read_unread, harg9.read_unread, View.ld_unit_zero (S := S1x2048x128) hz3, View.ld_unit_zero (S := S1x512x128) hz3, View.ld_unit_zero (S := S1x2048x512) hz3, View.ld_unit_zero (S := S2048x1) hz2, View.ld_unit_zero (S := S2048x128) hz2]
  rfl

theorem sout_A_2 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .i32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x512x128 .f32) (x2 : Vec F S1x512x128 .f32) (x3 : Vec F S1x2048x512 .i32) :
    sout0_A_2 c i arg2 harg2 arg3 harg3 arg4 harg4 arg5 harg5 arg6 harg6 arg7 harg7 arg8 harg8 arg9 harg9 hc0 hc1 x0 x1 x2 x3 = nextAcc x0 x1 x2 x3 resetMax resetAcc := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S2048x128) hz2]
  simp only [View.readCov_unit_zero (S := S2048x1) _ hz2, View.readCov_unit_zero (S := S2048x128) _ hz2, View.readAt_eq_ld, harg2.read_unread, harg3.read_unread, harg4.read_unread, harg5.read_unread, harg6.read_unread, harg7.read_unread, harg8.read_unread, harg9.read_unread, View.ld_unit_zero (S := S1x2048x128) hz3, View.ld_unit_zero (S := S1x512x128) hz3, View.ld_unit_zero (S := S1x2048x512) hz3, View.ld_unit_zero (S := S2048x1) hz2, View.ld_unit_zero (S := S2048x128) hz2]
  rfl

/-! ## Case B: a middle tile -/

theorem sout_B_0 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .i32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x512x128 .f32) (x2 : Vec F S1x512x128 .f32) (x3 : Vec F S1x2048x512 .i32) (xs0 : Vec F S2048x1 .f32) (xs1 : Vec F S2048x1 .f32) (xs2 : Vec F S2048x128 .f32) :
    sout0_B_0 c i arg2 harg2 arg3 harg3 arg4 harg4 arg5 harg5 arg6 harg6 arg7 harg7 arg8 harg8 arg9 harg9 hc0 hc1 x0 x1 x2 x3 xs0 xs1 xs2 = nextMax x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x2048x128) hz3, View.ld_unit_zero (S := S1x512x128) hz3, View.ld_unit_zero (S := S1x2048x512) hz3, View.ld_unit_zero (S := S2048x1) hz2, View.ld_unit_zero (S := S2048x128) hz2]
  rfl

theorem sout_B_1 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .i32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x512x128 .f32) (x2 : Vec F S1x512x128 .f32) (x3 : Vec F S1x2048x512 .i32) (xs0 : Vec F S2048x1 .f32) (xs1 : Vec F S2048x1 .f32) (xs2 : Vec F S2048x128 .f32) :
    sout0_B_1 c i arg2 harg2 arg3 harg3 arg4 harg4 arg5 harg5 arg6 harg6 arg7 harg7 arg8 harg8 arg9 harg9 hc0 hc1 x0 x1 x2 x3 xs0 xs1 xs2 = nextNorm x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x2048x128) hz3, View.ld_unit_zero (S := S1x512x128) hz3, View.ld_unit_zero (S := S1x2048x512) hz3, View.ld_unit_zero (S := S2048x1) hz2, View.ld_unit_zero (S := S2048x128) hz2]
  rfl

theorem sout_B_2 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .i32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x512x128 .f32) (x2 : Vec F S1x512x128 .f32) (x3 : Vec F S1x2048x512 .i32) (xs0 : Vec F S2048x1 .f32) (xs1 : Vec F S2048x1 .f32) (xs2 : Vec F S2048x128 .f32) :
    sout0_B_2 c i arg2 harg2 arg3 harg3 arg4 harg4 arg5 harg5 arg6 harg6 arg7 harg7 arg8 harg8 arg9 harg9 hc0 hc1 x0 x1 x2 x3 xs0 xs1 xs2 = nextAcc x0 x1 x2 x3 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x2048x128) hz3, View.ld_unit_zero (S := S1x512x128) hz3, View.ld_unit_zero (S := S1x2048x512) hz3, View.ld_unit_zero (S := S2048x1) hz2, View.ld_unit_zero (S := S2048x128) hz2]
  rfl

/-! ## Case C: a batch's last tile -/

theorem sout_C_0 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .i32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x512x128 .f32) (x2 : Vec F S1x512x128 .f32) (x3 : Vec F S1x2048x512 .i32) (xs0 : Vec F S2048x1 .f32) (xs1 : Vec F S2048x1 .f32) (xs2 : Vec F S2048x128 .f32) :
    sout0_C_0 c i arg2 harg2 arg3 harg3 arg4 harg4 arg5 harg5 arg6 harg6 arg7 harg7 arg8 harg8 arg9 harg9 hc0 hc1 x0 x1 x2 x3 xs0 xs1 xs2 = nextMax x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x2048x128) hz3, View.ld_unit_zero (S := S1x512x128) hz3, View.ld_unit_zero (S := S1x2048x512) hz3, View.ld_unit_zero (S := S2048x1) hz2, View.ld_unit_zero (S := S2048x128) hz2]
  rfl

theorem sout_C_1 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .i32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x512x128 .f32) (x2 : Vec F S1x512x128 .f32) (x3 : Vec F S1x2048x512 .i32) (xs0 : Vec F S2048x1 .f32) (xs1 : Vec F S2048x1 .f32) (xs2 : Vec F S2048x128 .f32) :
    sout0_C_1 c i arg2 harg2 arg3 harg3 arg4 harg4 arg5 harg5 arg6 harg6 arg7 harg7 arg8 harg8 arg9 harg9 hc0 hc1 x0 x1 x2 x3 xs0 xs1 xs2 = nextNorm x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x2048x128) hz3, View.ld_unit_zero (S := S1x512x128) hz3, View.ld_unit_zero (S := S1x2048x512) hz3, View.ld_unit_zero (S := S2048x1) hz2, View.ld_unit_zero (S := S2048x128) hz2]
  rfl

theorem sout_C_2 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .i32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x512x128 .f32) (x2 : Vec F S1x512x128 .f32) (x3 : Vec F S1x2048x512 .i32) (xs0 : Vec F S2048x1 .f32) (xs1 : Vec F S2048x1 .f32) (xs2 : Vec F S2048x128 .f32) :
    sout0_C_2 c i arg2 harg2 arg3 harg3 arg4 harg4 arg5 harg5 arg6 harg6 arg7 harg7 arg8 harg8 arg9 harg9 hc0 hc1 x0 x1 x2 x3 xs0 xs1 xs2 = nextAcc x0 x1 x2 x3 xs0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x2048x128) hz3, View.ld_unit_zero (S := S1x512x128) hz3, View.ld_unit_zero (S := S1x2048x512) hz3, View.ld_unit_zero (S := S2048x1) hz2, View.ld_unit_zero (S := S2048x128) hz2]
  rfl

/-- At a batch's last tile the body also stores the output block: the updated weighted sums over the updated normalizers. -/
theorem out_C_4 (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x512x128 .f32) (harg4 : arg4.IsWhole) (arg5 : Memref sig .tc .vmem S1x2048x512 .i32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x512x128 .f32) (x2 : Vec F S1x512x128 .f32) (x3 : Vec F S1x2048x512 .i32) (xs0 : Vec F S2048x1 .f32) (xs1 : Vec F S2048x1 .f32) (xs2 : Vec F S2048x128 .f32) :
    out0_C_4 c i arg2 harg2 arg3 harg3 arg4 harg4 arg5 harg5 arg6 harg6 arg7 harg7 arg8 harg8 arg9 harg9 hc0 hc1 x0 x1 x2 x3 xs0 xs1 xs2 = quotient (nextAcc x0 x1 x2 x3 xs0 xs2) (nextNorm x0 x1 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz3]
  simp only [View.readCov_unit_zero (S := S2048x1) _ hz2, View.readCov_unit_zero (S := S2048x128) _ hz2, View.readAt_eq_ld, harg2.read_unread, harg3.read_unread, harg4.read_unread, harg5.read_unread, harg6.read_unread, harg7.read_unread, harg8.read_unread, harg9.read_unread, View.ld_unit_zero (S := S1x2048x128) hz3, View.ld_unit_zero (S := S1x512x128) hz3, View.ld_unit_zero (S := S1x2048x512) hz3, View.ld_unit_zero (S := S2048x1) hz2, View.ld_unit_zero (S := S2048x128) hz2]
  rfl

end Cert.KernelIdeal.Stream

end
-- ==== Proof.Spec.lean ====
/-
  The specification: dropout attention, one formula per output entry, over the extended reals.

  For a batch `b`, a query row `q` and an output column `v`:

    score b q k  = (∑ d, x1[b,q,d] · x2[b,k,d]) · scale                 (scale the f32 word nearest 1/5)
    rowMax b q   = max (-∞) (max over k, from -∞, of score b q k)
    expo b q k   = exp (score b q k − rowMax b q)
    denom b q    = 0 + ∑ k, expo b q k
    out b q v    = ∑ k, (if mask[b,q,k] then expo b q k / denom b q · keep else 0) · x3[b,k,v]
                                                                         (keep the f32 word nearest 10/9)

  The float literals stay the words the two programs print: the same word on both sides is never
  evaluated; only the infinity and the zero are (`negInf_eq`, `zero_eq`), where the streaming side
  needs their values.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The three float arguments' shape, [batch, row, feature]. -/
abbrev SA : Shape := ⟨3, ![16, 2048, 128]⟩
/-- The mask's shape, [batch, query, key]. -/
abbrev SK : Shape := ⟨3, ![16, 2048, 2048]⟩

/-- The score scale: the f32 word nearest 1/5. -/
abbrev scale : EReal := Ideal.ofBits .f32 0x3E4CCCCD#32
/-- The dropout rescale: the f32 word nearest 10/9. -/
abbrev keep : EReal := Ideal.ofBits .f32 0x3F8E38E4#32
/-- The maxima start from the word of -∞. -/
abbrev negInf : EReal := Ideal.ofBits .f32 0xFF800000#32
/-- The sums start from the zero word. -/
abbrev zero : EReal := Ideal.ofBits .f32 0x00000000#32

theorem negInf_eq : negInf = ⊥ := by simp [negInf, Ideal.ofBits, Ideal.ieee]
theorem zero_eq : zero = 0 := Ideal.ofBits_zero_f32

/-- The scaled score of query row `q` against key row `k` in batch `b`. -/
def score (X1 X2 : SA.Idx → EReal) (b : Fin 16) (q k : Fin 2048) : EReal :=
  (∑ d : Fin 128, X1 (ix3 b q d) * X2 (ix3 b k d)) * scale

/-- The row's maximum score, as jnp's softmax takes it: a max-reduce from -∞, then once more against -∞. -/
def rowMax (X1 X2 : SA.Idx → EReal) (b : Fin 16) (q : Fin 2048) : EReal :=
  max negInf ((Finset.univ : Finset (Fin 2048)).fold max negInf (fun k => score X1 X2 b q k))

/-- The shifted exponential of one score. -/
def expo (X1 X2 : SA.Idx → EReal) (b : Fin 16) (q k : Fin 2048) : EReal :=
  Ideal.exp (score X1 X2 b q k - rowMax X1 X2 b q)

/-- The row's normalizer. -/
def denom (X1 X2 : SA.Idx → EReal) (b : Fin 16) (q : Fin 2048) : EReal :=
  zero + ∑ k : Fin 2048, expo X1 X2 b q k

/-- The kept, rescaled probability of key `k` for query `q`: zero where the mask drops it. -/
def prob (X1 X2 : SA.Idx → EReal) (MK : SK.Idx → BitVec 1) (b : Fin 16) (q k : Fin 2048) : EReal :=
  Scalar.select (MK (ix3 b q k)) (Ideal.div (expo X1 X2 b q k) (denom X1 X2 b q) * keep) zero

/-- The attention output, entry by entry. -/
def out (X1 X2 X3 : SA.Idx → EReal) (MK : SK.Idx → BitVec 1) : SA.Idx → EReal := fun i =>
  ∑ k : Fin 2048, prob X1 X2 MK (i 0) (i 1) k * X3 (ix3 (i 0) k (i 2))

end Cert.Attention

end
-- ==== Proof.LibColumn.lean ====
/-
  Keepdims columns: a vector of length `a` cast to the one-column matrix `[a, 1]`, and a one-column matrix
  `[a, 1]` broadcast along its rows to `[a, b]`, each read at an index given by its coordinates. (A row-wise
  reduction kept as a column and broadcast back over the row — a row maximum or a row sum subtracted from or
  divided into every entry of the row — is read through these two.)
-/
import Idealize.ShloMosaic.Lib.ValueIdx
import Idealize.ShloMosaic.Lib.Pipeline.Value

noncomputable section

namespace Cert.LibColumn

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.LibDotNT.lean ====
/-
  A matrix product against a transposed right operand, read at an entry.

  For dimension numbers that contract the SECOND axis of both operands, with no batch axes — an `M×K` array against
  an `N×K` array, giving `M×N` — the contraction's index set is one axis of extent `K`, and the operand indices at
  output entry `(p, q)` and contraction position `k` are `(p, k)` on the left and `(q, k)` on the right. So the sum
  over the contraction index set of the operands' products is `∑ k : Fin K, l (p, k) * r (q, k)`: row `p` of the left
  operand against row `q` of the right. Stated for any dimension-number record whose six lists are these, so that
  every printed record of this form meets it by `rfl` hypotheses.
-/
import Idealize.ShloMosaic.Lib.ValueIdx
import Idealize.ShloMosaic.PureOps.Ideal.Laws

noncomputable section

namespace Cert.LibDotNT

open Idealize.ShloMosaic Idealize.ShloMosaic.ValueIdx

/-- The sum over the contraction index set, at output entry `(p, q)`, is the sum over `k : Fin K` of the left operand
    at `(p, k)` times the right operand at `(q, k)`, in any commutative additive monoid with a product. -/
theorem sum_rows {R : Type} [AddCommMonoid R] [Mul R] {M K N : Nat}
    (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → R) (r : (⟨2, ![N, K]⟩ : Shape).Idx → R) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ =>
      subst hd
      unfold DotDims.rhsIdx
      split
      · rename_i hb; exact absurd hb List.not_mem_nil
      · split
        · rfl
        · rename_i hn; exact absurd (List.mem_singleton.mpr (Fin.ext rfl)) hn
    | ⟨1, _⟩ => exact (d.rhsIdx_val_of_single hrc _ _).trans hk)
  rw [el, er]

end Cert.LibDotNT

end
-- ==== Proof.StepAt.lean ====
/-
  One key tile's update, read entry by entry over the extended reals.

  With `x0` the batch's query block, `x1` / `x2` the tile's key and value blocks, `x3` the tile's mask block, and
  `mx`, `nm`, `ac` the running row maxima, normalizers and weighted sums:

    tileScore q k = (∑ d, x0[q,d] · x1[k,d]) · scale
    nextMax q     = max (mx q) (max over the tile's k, from -∞, of tileScore q k)
    nextNorm q    = exp (mx q − nextMax q) · nm q + ∑ k, exp (tileScore q k − nextMax q)
    nextAcc q v   = exp (mx q − nextMax q) · ac q v
                      + ∑ k, (if mask q k then exp (tileScore q k − nextMax q) · keep else 0) · x2[k,v]
    quotient q v  = ac q v / nm q

  A change of float format is the identity here, a matrix product into the zero accumulator is the plain sum of
  products, a row reduction is the sum (or the maximum) over the row.
-/
import proofs.«142846_j39676907883517_2_alg».proof.Proof.Pieces
import proofs.«142846_j39676907883517_2_alg».proof.Proof.Spec
import proofs.«142846_j39676907883517_2_alg».proof.Proof.LibColumn
import proofs.«142846_j39676907883517_2_alg».proof.Proof.LibPlainDot
import proofs.«142846_j39676907883517_2_alg».proof.Proof.LibDotNT
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stream

open Cert.KernelIdeal Cert.KernelIdeal.Gen
open Idealize.ShloMosaic Idealize.ShloMosaic.ValueIdx
open Cert.Attention (scale keep negInf zero)

/-- The tile's scaled score of query row `q` against the tile's key row `k`. -/
def tileScore (x0 : FVec Ideal S1x2048x128 .f32) (x1 : FVec Ideal S1x512x128 .f32) (q : Fin 2048) (k : Fin 512) : EReal :=
  (∑ d : Fin 128, x0 (ix3 (0 : Fin 1) q d) * x1 (ix3 (0 : Fin 1) k d)) * scale

/-- The score block at (q, k): the product of query row `q` with key row `k`, scaled. -/
theorem score_apply (x0 : FVec Ideal S1x2048x128 .f32) (x1 : FVec Ideal S1x512x128 .f32) (q : Fin 2048) (k : Fin 512) :
    k0_pay10 (F := Ideal) x0 x1 (ix2 q k) = tileScore x0 x1 q k := by
  unfold k0_pay10 tileScore
  refine (mulf_apply _ _ _).trans (congrArg₂ (· * ·) ?_ rfl)
  refine (Ideal.matmul_constant_zero_apply dot_S2048x128_S512x128_S2048x512_1_1_0_0_n_n none _ _ (ix2 q k)).trans ?_
  refine (Cert.LibDotNT.sum_rows dot_S2048x128_S512x128_S2048x512_1_1_0_0_n_n rfl rfl rfl rfl rfl rfl _ _ q k).trans ?_
  refine Finset.sum_congr rfl fun d _ => ?_
  refine congrArg₂ (· * ·) ?_ ?_
  · exact shapeCast_1ab_ab_apply x0 _ q d
  · exact shapeCast_1ab_ab_apply x1 _ k d

/-- The reduced index with the key coordinate put back is the entry (q, k). -/
theorem lift_row (q : Fin 2048) (k : Fin 512) :
    (Facts₀.reduces_S2048x512_S2048 : S2048x512.Reduces [1] S2048).lift (ix1 q) k = ix2 q k :=
  funext fun a => Fin.ext (by match a with | ⟨0, _⟩ => rfl | ⟨1, _⟩ => rfl)

/-- The tile's maximum score in row `q`, from -∞. -/
def tileMax (x0 : FVec Ideal S1x2048x128 .f32) (x1 : FVec Ideal S1x512x128 .f32) (q : Fin 2048) : EReal :=
  (Finset.univ : Finset (Fin 512)).fold max negInf (fun k => tileScore x0 x1 q k)

/-- The new running maximum of row `q`: the old one against the tile's. -/
theorem newMax_apply (x0 : FVec Ideal S1x2048x128 .f32) (x1 : FVec Ideal S1x512x128 .f32) (mx : FVec Ideal S2048x1 .f32)
    (q : Fin 2048) :
    k0_pay11 (F := Ideal) x0 x1 mx (ix2 q (0 : Fin 1)) = max (mx (ix2 q (0 : Fin 1))) (tileMax x0 x1 q) := by
  unfold k0_pay11 tileMax
  refine (maximumf_apply _ _ _).trans (congrArg₂ max rfl ?_)
  refine (Cert.LibColumn.shapeCast_a_a1_apply _ _ q (0 : Fin 1)).trans ?_
  refine (Ideal.multiReduction_maximumf_single (k0_pay10 (F := Ideal) x0 x1) 0xFF800000#32 Facts₀.reduces_S2048x512_S2048 _ _ (ix1 q)).trans ?_
  refine Finset.fold_congr fun k _ => ?_
  exact (congrArg (k0_pay10 (F := Ideal) x0 x1) (lift_row q k)).trans (score_apply x0 x1 q k)

theorem nextMax_apply (x0 : FVec Ideal S1x2048x128 .f32) (x1 : FVec Ideal S1x512x128 .f32) (mx : FVec Ideal S2048x1 .f32)
    (q : Fin 2048) :
    nextMax (F := Ideal) x0 x1 mx (ix2 q (0 : Fin 1)) = max (mx (ix2 q (0 : Fin 1))) (tileMax x0 x1 q) := by
  unfold nextMax k0_pay2
  exact (congrFun (shapeCast_self _ _) _).trans (newMax_apply x0 x1 mx q)

/-- The factor that rescales row `q`'s old sums to the new maximum. -/
theorem rescale_apply (x0 : FVec Ideal S1x2048x128 .f32) (x1 : FVec Ideal S1x512x128 .f32) (mx : FVec Ideal S2048x1 .f32)
    (q : Fin 2048) :
    k0_pay12 (F := Ideal) x0 x1 mx (ix2 q (0 : Fin 1))
      = Ideal.exp (mx (ix2 q (0 : Fin 1)) - max (mx (ix2 q (0 : Fin 1))) (tileMax x0 x1 q)) := by
  unfold k0_pay12
  exact congrArg (fun y => Ideal.exp (mx (ix2 q (0 : Fin 1)) - y)) (newMax_apply x0 x1 mx q)

/-- The tile's shifted exponential at (q, k). -/
theorem shifted_apply (x0 : FVec Ideal S1x2048x128 .f32) (x1 : FVec Ideal S1x512x128 .f32) (mx : FVec Ideal S2048x1 .f32)
    (q : Fin 2048) (k : Fin 512) :
    k0_pay13 (F := Ideal) x0 x1 mx (ix2 q k)
      = Ideal.exp (tileScore x0 x1 q k - max (mx (ix2 q (0 : Fin 1))) (tileMax x0 x1 q)) := by
  unfold k0_pay13
  refine congrArg Ideal.exp (congrArg₂ (· - ·) (score_apply x0 x1 q k) ?_)
  exact (Cert.LibColumn.broadcastTo_a1_ab_apply _ _ q k).trans (newMax_apply x0 x1 mx q)

/-- The new normalizer of row `q`: the old one rescaled, plus the tile's shifted exponentials. -/
theorem nextNorm_apply (x0 : FVec Ideal S1x2048x128 .f32) (x1 : FVec Ideal S1x512x128 .f32) (mx nm : FVec Ideal S2048x1 .f32)
    (q : Fin 2048) :
    nextNorm (F := Ideal) x0 x1 mx nm (ix2 q (0 : Fin 1))
      = Ideal.exp (mx (ix2 q (0 : Fin 1)) - max (mx (ix2 q (0 : Fin 1))) (tileMax x0 x1 q)) * nm (ix2 q (0 : Fin 1))
        + ∑ k : Fin 512, Ideal.exp (tileScore x0 x1 q k - max (mx (ix2 q (0 : Fin 1))) (tileMax x0 x1 q)) := by
  unfold nextNorm k0_pay3
  refine (congrFun (shapeCast_self _ _) _).trans ?_
  unfold k0_pay14
  refine (addf_apply _ _ _).trans (congrArg₂ (· + ·) ?_ ?_)
  · exact (mulf_apply _ _ _).trans (congrArg₂ (· * ·) (rescale_apply x0 x1 mx q) rfl)
  · refine (Cert.LibColumn.shapeCast_a_a1_apply _ _ q (0 : Fin 1)).trans ?_
    refine (Ideal.multiReduction_add_single (k0_pay13 (F := Ideal) x0 x1 mx) 0x00000000#32 Facts₀.reduces_S2048x512_S2048 _ _ (ix1 q)).trans ?_
    refine Finset.sum_congr rfl fun k _ => ?_
    exact (congrArg (k0_pay13 (F := Ideal) x0 x1 mx) (lift_row q k)).trans (shifted_apply x0 x1 mx q k)

/-- The mask bit the body tests at (q, k): the staged word is not zero. -/
def maskBit (x3 : Vec Ideal S1x2048x512 .i32) (q : Fin 2048) (k : Fin 512) : BitVec 1 :=
  IntOp.cmpi .ne (x3 (ix3 (0 : Fin 1) q k)) 0#32

theorem maskBit_apply (x3 : Vec Ideal S1x2048x512 .i32) (q : Fin 2048) (k : Fin 512) :
    k0_pay9 (F := Ideal) x3 (ix2 q k) = maskBit x3 q k := by
  unfold k0_pay9 maskBit
  exact congrArg (fun w => IntOp.cmpi .ne w 0#32) (shapeCast_1ab_ab_apply x3 _ q k)

/-- The new weighted sum at (q, v): the old one rescaled, plus the tile's masked, rescaled exponentials against the
    tile's value rows. -/
theorem nextAcc_apply (x0 : FVec Ideal S1x2048x128 .f32) (x1 x2 : FVec Ideal S1x512x128 .f32) (x3 : Vec Ideal S1x2048x512 .i32)
    (mx : FVec Ideal S2048x1 .f32) (ac : FVec Ideal S2048x128 .f32) (q : Fin 2048) (v : Fin 128) :
    nextAcc (F := Ideal) x0 x1 x2 x3 mx ac (ix2 q v)
      = Ideal.exp (mx (ix2 q (0 : Fin 1)) - max (mx (ix2 q (0 : Fin 1))) (tileMax x0 x1 q)) * ac (ix2 q v)
        + ∑ k : Fin 512,
            Scalar.select (maskBit x3 q k)
              (Ideal.exp (tileScore x0 x1 q k - max (mx (ix2 q (0 : Fin 1))) (tileMax x0 x1 q)) * keep) zero
            * x2 (ix3 (0 : Fin 1) k v) := by
  unfold nextAcc k0_pay1
  refine (congrFun (shapeCast_self _ _) _).trans ?_
  refine (addf_apply _ _ _).trans (congrArg₂ (· + ·) ?_ ?_)
  · refine (mulf_apply _ _ _).trans (congrArg₂ (· * ·) ?_ rfl)
    exact (Cert.LibColumn.broadcastTo_a1_ab_apply _ _ q v).trans (rescale_apply x0 x1 mx q)
  · refine (Ideal.matmul_constant_zero_apply dot_S2048x512_S512x128_S2048x128_1_0_0_1_n_n none _ _ (ix2 q v)).trans ?_
    refine (Cert.LibPlainDot.sum_plain dot_S2048x512_S512x128_S2048x128_1_0_0_1_n_n rfl rfl rfl rfl rfl rfl _ _ q v).trans ?_
    refine Finset.sum_congr rfl fun k _ => ?_
    refine congrArg₂ (· * ·) ?_ ?_
    · refine (select_apply _ _ _ _).trans ?_
      refine congrArg₂ (fun c a => Scalar.select c a zero) (maskBit_apply x3 q k) ?_
      exact (mulf_apply _ _ _).trans (congrArg₂ (· * ·) (shifted_apply x0 x1 mx q k) rfl)
    · unfold k0_pay8
      exact shapeCast_1ab_ab_apply x2 _ k v

/-- The output block at (0, q, v): the weighted sum over the normalizer of row `q`. -/
theorem quotient_apply (ac : FVec Ideal S2048x128 .f32) (nm : FVec Ideal S2048x1 .f32) (q : Fin 2048) (v : Fin 128) :
    quotient (F := Ideal) ac nm (ix3 (0 : Fin 1) q v) = Ideal.div (ac (ix2 q v)) (nm (ix2 q (0 : Fin 1))) := by
  unfold quotient k0_pay4
  refine (shapeCast_ab_1ab_apply _ _ (0 : Fin 1) q v).trans ?_
  refine (divf_apply _ _ _).trans (congrArg (Ideal.div (ac (ix2 q v))) ?_)
  exact Cert.LibColumn.broadcastTo_a1_ab_apply _ _ q v

/-- The reset values: -∞ for the maxima, zero for the two sums. -/
theorem resetMax_apply (q : Fin 2048) : resetMax (F := Ideal) (ix2 q (0 : Fin 1)) = negInf := by
  unfold resetMax k0_pay5
  exact congrFun (shapeCast_self _ _) _

theorem resetNorm_apply (q : Fin 2048) : resetNorm (F := Ideal) (ix2 q (0 : Fin 1)) = zero := by
  unfold resetNorm k0_pay6
  exact congrFun (shapeCast_self _ _) _

theorem resetAcc_apply (q : Fin 2048) (v : Fin 128) : resetAcc (F := Ideal) (ix2 q v) = zero := by
  unfold resetAcc k0_pay7
  exact congrFun (shapeCast_self _ _) _

end Cert.KernelIdeal.Stream

end
-- ==== Proof.LibCoe.lean ====
/-
  Real numbers inside the extended reals: the coercion commutes with finite sums, with the maximum of a nonempty
  finite family (taken as a fold from -∞), with the exponential, and with a quotient by a nonzero real.
-/
import Idealize.ShloMosaic.PureOps.Ideal
import Mathlib.Data.EReal.Basic
import Mathlib.Order.Fin.Basic

noncomputable section

namespace Cert.LibCoe

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, from -∞, of the coercions of a nonempty finite family of reals is the coercion of their maximum. -/
theorem fold_max_coe {ι : Type*} [Fintype ι] [Nonempty ι] (f : ι → ℝ) :
    (Finset.univ : Finset ι).fold max (⊥ : EReal) (fun k => (f k : EReal))
      = ((Finset.univ.sup' Finset.univ_nonempty f : ℝ) : EReal) := by
  have h1 : (Finset.univ : Finset ι).fold max (⊥ : EReal) (fun k => (f k : EReal))
      = Finset.univ.sup (fun k => (f k : EReal)) := rfl
  rw [h1, ← Finset.sup'_eq_sup Finset.univ_nonempty]
  exact (Finset.comp_sup'_eq_sup'_comp Finset.univ_nonempty (fun r : ℝ => (r : EReal)) (fun x y => EReal.coe_strictMono.monotone.map_sup x y)).symm

/-- The exponential of a real. -/
theorem exp_coe (r : ℝ) : Ideal.exp (r : EReal) = ((Real.exp r : ℝ) : EReal) := rfl

/-- The exponential of -∞ less a real is zero. -/
theorem exp_bot_sub_coe (r : ℝ) : Ideal.exp ((⊥ : EReal) - (r : EReal)) = 0 := by
  rw [EReal.bot_sub]
  rfl

/-- A quotient of reals by a nonzero real. -/
theorem div_coe_coe (a b : ℝ) (hb : b ≠ 0) : Ideal.div (a : EReal) (b : EReal) = ((a / b : ℝ) : EReal) := by
  rw [Ideal.div_coe hb, ← EReal.coe_mul]
  congr 1
  field_simp

/-- An extended real that is neither infinity is the coercion of a real. -/
theorem exists_real {x : EReal} (h1 : x ≠ ⊤) (h2 : x ≠ ⊥) : ∃ r : ℝ, x = (r : EReal) :=
  ⟨x.toReal, (EReal.coe_toReal h1 h2).symm⟩

/-- A float pattern whose exponent field is not all ones (neither an infinity nor a NaN) denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split
  · exact ⟨_, rfl⟩
  · exact ⟨_, rfl⟩

/-- The f32 word nearest 1/5 denotes a real number. -/
theorem scale_real : ∃ r : ℝ, Ideal.ofBits .f32 0x3E4CCCCD#32 = (r : EReal) :=
  ieee_real 8 23 (0x3E4CCCCD#32 : BitVec 32) (by decide)

/-- The f32 word nearest 10/9 denotes a real number. -/
theorem keep_real : ∃ r : ℝ, Ideal.ofBits .f32 0x3F8E38E4#32 = (r : EReal) :=
  ieee_real 8 23 (0x3F8E38E4#32 : BitVec 32) (by decide)

end Cert.LibCoe

end
-- ==== Proof.OnlineSoftmax.lean ====
/-
  The algebra of the streaming softmax, over the reals.

  A row of scores arrives tile by tile: `s i k` is score `k` of tile `i`, `u i k` the weight its
  exponential is multiplied by. After tiles `0 … j` the stream holds the running maximum `Mx s j`,
  the normalizer `Lsum s j = ∑ exp (s − Mx s j)` over those tiles, and the weighted sum
  `Asum s u j = ∑ exp (s − Mx s j) · u`. Passing to one more tile rescales both sums by
  `exp (old max − new max)` and adds the new tile's terms (`Lsum_succ`, `Asum_succ`: the exponential
  of a sum is the product); the final quotient `Asum / Lsum` is the softmax-weighted sum
  (`quotient`). Cut into four tiles of 512, a row of 2048 gives back the whole row's maximum and
  sums (`Mx_tiles`, `sum_tiles`), so the stream's quotient is the plain softmax's weighted sum
  (`streaming_eq_softmax`).
-/
import Mathlib

noncomputable section

namespace Cert.OnlineSoftmax

open Finset

section Stream

variable {ι : Type*} [Fintype ι] [Nonempty ι]

/-- The maximum of one tile. -/
def tmax (f : ι → ℝ) : ℝ := Finset.univ.sup' Finset.univ_nonempty f

/-- The running maximum after tiles `0 … j`. -/
def Mx (s : ℕ → ι → ℝ) : ℕ → ℝ
  | 0 => tmax (s 0)
  | j + 1 => max (Mx s j) (tmax (s (j + 1)))

/-- The normalizer after tiles `0 … j`, relative to the running maximum. -/
def Lsum (s : ℕ → ι → ℝ) (j : ℕ) : ℝ := ∑ i ∈ range (j + 1), ∑ k, Real.exp (s i k - Mx s j)

/-- The weighted sum after tiles `0 … j`, relative to the running maximum. -/
def Asum (s u : ℕ → ι → ℝ) (j : ℕ) : ℝ := ∑ i ∈ range (j + 1), ∑ k, Real.exp (s i k - Mx s j) * u i k

theorem Mx_zero (s : ℕ → ι → ℝ) : Mx s 0 = tmax (s 0) := rfl

theorem Mx_succ (s : ℕ → ι → ℝ) (j : ℕ) : Mx s (j + 1) = max (Mx s j) (tmax (s (j + 1))) := rfl

/-- Every score of a tile is at most the tile's maximum. -/
theorem le_tmax (f : ι → ℝ) (k : ι) : f k ≤ tmax f := Finset.le_sup' f (Finset.mem_univ k)

/-- A bound on every score of a tile bounds the tile's maximum. -/
theorem tmax_le {f : ι → ℝ} {c : ℝ} (h : ∀ k, f k ≤ c) : tmax f ≤ c :=
  Finset.sup'_le _ _ (fun k _ => h k)

/-- The running maximum dominates the maximum of every tile seen so far. -/
theorem tmax_le_Mx (s : ℕ → ι → ℝ) {i j : ℕ} (h : i ≤ j) : tmax (s i) ≤ Mx s j := by
  induction j with
  | zero =>
    have hi : i = 0 := Nat.le_zero.mp h
    subst hi
    exact le_refl _
  | succ j ih =>
    rw [Mx_succ]
    rcases Nat.lt_or_ge i (j + 1) with h' | h'
    · exact le_trans (ih (Nat.lt_succ_iff.mp h')) (le_max_left _ _)
    · have hi : i = j + 1 := le_antisymm h h'
      subst hi
      exact le_max_right _ _

/-- A bound on the maximum of every tile seen so far bounds the running maximum. -/
theorem Mx_le (s : ℕ → ι → ℝ) {c : ℝ} (j : ℕ) (h : ∀ i, i ≤ j → tmax (s i) ≤ c) : Mx s j ≤ c := by
  induction j with
  | zero => exact h 0 le_rfl
  | succ j ih =>
    rw [Mx_succ]
    exact max_le (ih (fun i hi => h i (Nat.le_succ_of_le hi))) (h (j + 1) le_rfl)

theorem Lsum_zero (s : ℕ → ι → ℝ) : Lsum s 0 = ∑ k, Real.exp (s 0 k - tmax (s 0)) := by
  show ∑ i ∈ range 1, ∑ k, Real.exp (s i k - Mx s 0) = _
  rw [Finset.sum_range_one]
  rfl

theorem Asum_zero (s u : ℕ → ι → ℝ) : Asum s u 0 = ∑ k, Real.exp (s 0 k - tmax (s 0)) * u 0 k := by
  show ∑ i ∈ range 1, ∑ k, Real.exp (s i k - Mx s 0) * u i k = _
  rw [Finset.sum_range_one]
  rfl

/-- One more tile: the old normalizer rescaled to the new maximum, plus the new tile's terms. -/
theorem Lsum_succ (s : ℕ → ι → ℝ) (j : ℕ) :
    Lsum s (j + 1) = Real.exp (Mx s j - Mx s (j + 1)) * Lsum s j + ∑ k, Real.exp (s (j + 1) k - Mx s (j + 1)) := by
  unfold Lsum
  -- split off the last tile, then push the rescaling factor into the double sum
  rw [Finset.sum_range_succ, Finset.mul_sum]
  congr 1
  apply Finset.sum_congr rfl
  intro i _
  rw [Finset.mul_sum]
  apply Finset.sum_congr rfl
  intro k _
  -- exp (a) · exp (b) = exp (a + b), and the old maximum cancels
  have hsplit : s i k - Mx s (j + 1) = (Mx s j - Mx s (j + 1)) + (s i k - Mx s j) := by ring
  rw [hsplit, Real.exp_add]

/-- One more tile: the old weighted sum rescaled to the new maximum, plus the new tile's terms. -/
theorem Asum_succ (s u : ℕ → ι → ℝ) (j : ℕ) :
    Asum s u (j + 1)
      = Real.exp (Mx s j - Mx s (j + 1)) * Asum s u j + ∑ k, Real.exp (s (j + 1) k - Mx s (j + 1)) * u (j + 1) k := by
  unfold Asum
  rw [Finset.sum_range_succ, Finset.mul_sum]
  congr 1
  apply Finset.sum_congr rfl
  intro i _
  rw [Finset.mul_sum]
  apply Finset.sum_congr rfl
  intro k _
  have hsplit : s i k - Mx s (j + 1) = (Mx s j - Mx s (j + 1)) + (s i k - Mx s j) := by ring
  rw [hsplit, Real.exp_add, mul_assoc]

theorem Lsum_pos (s : ℕ → ι → ℝ) (j : ℕ) : 0 < Lsum s j := by
  unfold Lsum
  -- a nonempty sum of nonempty sums of positive exponentials
  apply Finset.sum_pos
  · intro i _
    apply Finset.sum_pos
    · intro k _
      exact Real.exp_pos _
    · exact Finset.univ_nonempty
  · exact ⟨0, Finset.mem_range.mpr (Nat.succ_pos j)⟩

/-- Dividing the weighted sum by the normalizer divides each term. -/
theorem quotient (s u : ℕ → ι → ℝ) (j : ℕ) :
    Asum s u j / Lsum s j = ∑ i ∈ range (j + 1), ∑ k, Real.exp (s i k - Mx s j) / Lsum s j * u i k := by
  unfold Asum
  rw [Finset.sum_div]
  apply Finset.sum_congr rfl
  intro i _
  rw [Finset.sum_div]
  apply Finset.sum_congr rfl
  intro k _
  ring

end Stream

/-! ## A row of 2048 cut into four tiles of 512 -/

/-- Key `k` of tile `i` in the whole row: position `512 i + k` (reduced mod 2048, so that it is total in `i`). -/
def key (i : ℕ) (k : Fin 512) : Fin 2048 := ⟨(512 * i + k.val) % 2048, Nat.mod_lt _ (by norm_num)⟩

/-- A row read tile by tile. -/
def tile (f : Fin 2048 → ℝ) : ℕ → Fin 512 → ℝ := fun i k => f (key i k)

/-- The whole row's maximum. -/
def rmax (f : Fin 2048 → ℝ) : ℝ := Finset.univ.sup' Finset.univ_nonempty f

/-- Four tiles of 512 exhaust the row: a sum over the tiles is the sum over the row. -/
theorem sum_tiles (g : Fin 2048 → ℝ) : ∑ i ∈ range 4, ∑ k : Fin 512, g (key i k) = ∑ K : Fin 2048, g K := by
  -- the sum over tiles 0 … 3 as a sum over `Fin 4`, then over the pairs (tile, position in the tile)
  rw [Finset.sum_range (fun i => ∑ k : Fin 512, g (key i k))]
  rw [← Fintype.sum_prod_type' (fun (i : Fin 4) (k : Fin 512) => g (key i.val k))]
  -- (i, k) ↦ 512 i + k is a bijection from the pairs onto the row
  refine Fintype.sum_equiv
    ((finProdFinEquiv (m := 4) (n := 512)).trans (finCongr (by norm_num : 4 * 512 = 2048))) _ _ ?_
  rintro ⟨i, k⟩
  congr 1
  apply Fin.ext
  have hi := i.isLt
  have hk := k.isLt
  simp only [key, Equiv.trans_apply, finCongr_apply, Fin.coe_cast, finProdFinEquiv_apply_val]
  omega

/-- The running maximum after the fourth tile is the row's maximum. -/
theorem Mx_tiles (f : Fin 2048 → ℝ) : Mx (tile f) 3 = rmax f := by
  apply le_antisymm
  · -- every key of every tile is a key of the row
    apply Mx_le
    intro i _
    apply tmax_le
    intro k
    exact Finset.le_sup' f (Finset.mem_univ (key i k))
  · -- key `K` of the row is key `K % 512` of tile `K / 512`, one of the tiles 0 … 3
    unfold rmax
    apply Finset.sup'_le
    intro K _
    have hlt := K.isLt
    have hK : K = key (K.val / 512) ⟨K.val % 512, Nat.mod_lt _ (by norm_num)⟩ := by
      apply Fin.ext
      show K.val = (512 * (K.val / 512) + K.val % 512) % 2048
      omega
    have hi : K.val / 512 ≤ 3 := by omega
    calc f K = tile f (K.val / 512) ⟨K.val % 512, Nat.mod_lt _ (by norm_num)⟩ := congrArg f hK
      _ ≤ tmax (tile f (K.val / 512)) := le_tmax _ _
      _ ≤ Mx (tile f) 3 := tmax_le_Mx _ hi

/-- The law that joins the two programs: the stream's final quotient is the plain softmax's weighted sum over the row. -/
theorem streaming_eq_softmax (f w : Fin 2048 → ℝ) :
    Asum (tile f) (tile w) 3 / Lsum (tile f) 3
      = ∑ K : Fin 2048, Real.exp (f K - rmax f) / (∑ K' : Fin 2048, Real.exp (f K' - rmax f)) * w K := by
  -- the stream's normalizer is the row's normalizer
  have hL : Lsum (tile f) 3 = ∑ K' : Fin 2048, Real.exp (f K' - rmax f) := by
    unfold Lsum
    rw [Mx_tiles]
    exact sum_tiles (fun K => Real.exp (f K - rmax f))
  rw [quotient, hL, Mx_tiles]
  exact sum_tiles (fun K => Real.exp (f K - rmax f) / (∑ K' : Fin 2048, Real.exp (f K' - rmax f)) * w K)

end Cert.OnlineSoftmax

end
-- ==== Proof.StreamStep.lean ====
/-
  One key tile's update is one step of the real-number stream.

  Fix a query row `q` (and an output column `v`). If the tile's scaled scores are the real numbers `S j k` and each
  masked, rescaled exponential times its value entry is the real `e · U j k`, then from the reset values (-∞, 0, 0) the
  update leaves the stream's state after tile 0, and from the stream's state after tile `j` it leaves the state after
  tile `j + 1`: the running maximum `Mx S`, the normalizer `Lsum S`, the weighted sum `Asum S U`. Every value met
  is a real number, so each extended-real operation is the real one under the coercion; at the first tile the old
  maximum is -∞, whose exponential factor is 0 and kills the (zero) old sums.
-/
import proofs.«142846_j39676907883517_2_alg».proof.Proof.StepAt
import proofs.«142846_j39676907883517_2_alg».proof.Proof.LibCoe
import proofs.«142846_j39676907883517_2_alg».proof.Proof.OnlineSoftmax

noncomputable section

namespace Cert.KernelIdeal.Stream

open Cert.KernelIdeal Cert.KernelIdeal.Gen
open Idealize.ShloMosaic Idealize.ShloMosaic.ValueIdx
open Cert.Attention (scale keep negInf zero negInf_eq zero_eq)
open Cert.OnlineSoftmax (tmax Mx Lsum Asum Mx_zero Mx_succ Lsum_zero Asum_zero Lsum_succ Asum_succ Lsum_pos)
open Cert.LibCoe

variable (x0 : FVec Ideal S1x2048x128 .f32) (x1 x2 : FVec Ideal S1x512x128 .f32) (x3 : Vec Ideal S1x2048x512 .i32)

theorem coe_max (a b : ℝ) : max (a : EReal) (b : EReal) = ((max a b : ℝ) : EReal) :=
  (EReal.coe_strictMono.monotone.map_max).symm

/-- The tile's row maximum, when its scores are real. -/
theorem tileMax_coe (s : Fin 512 → ℝ) (q : Fin 2048) (hS : ∀ k, tileScore x0 x1 q k = (s k : EReal)) :
    tileMax x0 x1 q = ((tmax s : ℝ) : EReal) := by
  unfold tileMax
  rw [negInf_eq, show (fun k => tileScore x0 x1 q k) = fun k => (s k : EReal) from funext hS]
  exact fold_max_coe s

/-! ## A batch's first tile: from the reset values -/

theorem first_max (S : ℕ → Fin 512 → ℝ) (q : Fin 2048) (hS : ∀ k, tileScore x0 x1 q k = (S 0 k : EReal)) :
    nextMax (F := Ideal) x0 x1 resetMax (ix2 q (0 : Fin 1)) = ((Mx S 0 : ℝ) : EReal) := by
  rw [nextMax_apply, resetMax_apply, tileMax_coe x0 x1 (S 0) q hS, negInf_eq, max_bot_left, Mx_zero]

theorem first_norm (S : ℕ → Fin 512 → ℝ) (q : Fin 2048) (hS : ∀ k, tileScore x0 x1 q k = (S 0 k : EReal)) :
    nextNorm (F := Ideal) x0 x1 resetMax resetNorm (ix2 q (0 : Fin 1)) = ((Lsum S 0 : ℝ) : EReal) := by
  rw [nextNorm_apply, resetMax_apply, resetNorm_apply, tileMax_coe x0 x1 (S 0) q hS, negInf_eq, zero_eq, max_bot_left,
    exp_bot_sub_coe, zero_mul, zero_add, Lsum_zero, coe_sum]
  refine Finset.sum_congr rfl fun k _ => ?_
  rw [hS k, ← EReal.coe_sub, exp_coe]

theorem first_acc (S U : ℕ → Fin 512 → ℝ) (q : Fin 2048) (v : Fin 128)
    (hS : ∀ k, tileScore x0 x1 q k = (S 0 k : EReal))
    (hU : ∀ (k : Fin 512) (e : ℝ),
      Scalar.select (maskBit x3 q k) ((e : EReal) * keep) (0 : EReal) * x2 (ix3 (0 : Fin 1) k v) = ((e * U 0 k : ℝ) : EReal)) :
    nextAcc (F := Ideal) x0 x1 x2 x3 resetMax resetAcc (ix2 q v) = ((Asum S U 0 : ℝ) : EReal) := by
  rw [nextAcc_apply, resetMax_apply, resetAcc_apply, tileMax_coe x0 x1 (S 0) q hS, negInf_eq, zero_eq, max_bot_left,
    exp_bot_sub_coe, zero_mul, zero_add, Asum_zero, coe_sum]
  refine Finset.sum_congr rfl fun k _ => ?_
  rw [hS k, ← EReal.coe_sub, exp_coe, hU k]

/-! ## A later tile: from the stream's state after the tile before -/

theorem later_max (S : ℕ → Fin 512 → ℝ) (j : ℕ) (mx : FVec Ideal S2048x1 .f32) (q : Fin 2048)
    (hmx : mx (ix2 q (0 : Fin 1)) = ((Mx S j : ℝ) : EReal))
    (hS : ∀ k, tileScore x0 x1 q k = (S (j + 1) k : EReal)) :
    nextMax (F := Ideal) x0 x1 mx (ix2 q (0 : Fin 1)) = ((Mx S (j + 1) : ℝ) : EReal) := by
  rw [nextMax_apply, hmx, tileMax_coe x0 x1 (S (j + 1)) q hS, coe_max, Mx_succ]

theorem later_norm (S : ℕ → Fin 512 → ℝ) (j : ℕ) (mx nm : FVec Ideal S2048x1 .f32) (q : Fin 2048)
    (hmx : mx (ix2 q (0 : Fin 1)) = ((Mx S j : ℝ) : EReal))
    (hnm : nm (ix2 q (0 : Fin 1)) = ((Lsum S j : ℝ) : EReal))
    (hS : ∀ k, tileScore x0 x1 q k = (S (j + 1) k : EReal)) :
    nextNorm (F := Ideal) x0 x1 mx nm (ix2 q (0 : Fin 1)) = ((Lsum S (j + 1) : ℝ) : EReal) := by
  rw [nextNorm_apply, hmx, hnm, tileMax_coe x0 x1 (S (j + 1)) q hS, coe_max, ← Mx_succ, ← EReal.coe_sub, exp_coe,
    ← EReal.coe_mul, Lsum_succ, EReal.coe_add, coe_sum]
  refine congrArg _ (Finset.sum_congr rfl fun k _ => ?_)
  rw [hS k, ← EReal.coe_sub, exp_coe]

theorem later_acc (S U : ℕ → Fin 512 → ℝ) (j : ℕ) (mx : FVec Ideal S2048x1 .f32) (ac : FVec Ideal S2048x128 .f32)
    (q : Fin 2048) (v : Fin 128)
    (hmx : mx (ix2 q (0 : Fin 1)) = ((Mx S j : ℝ) : EReal))
    (hac : ac (ix2 q v) = ((Asum S U j : ℝ) : EReal))
    (hS : ∀ k, tileScore x0 x1 q k = (S (j + 1) k : EReal))
    (hU : ∀ (k : Fin 512) (e : ℝ),
      Scalar.select (maskBit x3 q k) ((e : EReal) * keep) (0 : EReal) * x2 (ix3 (0 : Fin 1) k v) = ((e * U (j + 1) k : ℝ) : EReal)) :
    nextAcc (F := Ideal) x0 x1 x2 x3 mx ac (ix2 q v) = ((Asum S U (j + 1) : ℝ) : EReal) := by
  rw [nextAcc_apply, hmx, hac, tileMax_coe x0 x1 (S (j + 1)) q hS, coe_max, ← Mx_succ, ← EReal.coe_sub, exp_coe,
    ← EReal.coe_mul, Asum_succ, EReal.coe_add, coe_sum, zero_eq]
  refine congrArg _ (Finset.sum_congr rfl fun k _ => ?_)
  rw [hS k, ← EReal.coe_sub, exp_coe, hU k]

/-! ## The output block at a batch's last tile -/

theorem quotient_coe (ac : FVec Ideal S2048x128 .f32) (nm : FVec Ideal S2048x1 .f32) (q : Fin 2048) (v : Fin 128)
    (a l : ℝ) (hl : l ≠ 0) (hac : ac (ix2 q v) = (a : EReal)) (hnm : nm (ix2 q (0 : Fin 1)) = (l : EReal)) :
    quotient (F := Ideal) ac nm (ix3 (0 : Fin 1) q v) = ((a / l : ℝ) : EReal) := by
  rw [quotient_apply, hac, hnm, div_coe_coe a l hl]

end Cert.KernelIdeal.Stream

end
-- ==== Proof.Blocks.lean ====
/-
  What each window's block holds at a grid point. The grid is (batch, key tile) = (t / 4, t % 4): the query block and
  the output block are the batch's whole [2048, 128] slab, the key and value blocks are rows 512·(t % 4) … of the
  batch's slab, the mask block is columns 512·(t % 4) … of the batch's [2048, 2048] mask, which reaches the region
  converted from one bit to a 32-bit word.
-/
import proofs.«142846_j39676907883517_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ)

/-- The five index maps at every grid point, decided once over the grid. -/
theorem idx_facts : ∀ t : Fin cfg0.N,
    (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 3) = t.val / 4 ∧ win0_3.index t (1 : Fin 3) = 0 ∧ win0_3.index t (2 : Fin 3) = t.val % 4)
    ∧ (win0_4.index t (0 : Fin 3) = t.val / 4 ∧ win0_4.index t (1 : Fin 3) = 0 ∧ win0_4.index t (2 : Fin 3) = 0) :=
  (by decide +kernel : ∀ t : Fin grid0.N, _)

/-- The batch of a grid point. -/
def batch (t : Fin cfg0.N) : Fin 16 := ⟨t.val / 4, by have h := t.isLt; have hN : cfg0.N = 64 := N_0; omega⟩

/-- Row `k` of key tile `j` within the batch's 2048 rows. -/
def row (t : Fin cfg0.N) (k : Fin 512) : Fin 2048 := ⟨512 * (t.val % 4) + k.val, by have := k.isLt; omega⟩

/-- The query block at (0, q, d) is the first argument at (batch, q, d). -/
theorem blk0_apply (c : Dev nD) (t : Fin cfg0.N) (q : Fin 2048) (d : Fin 128) :
    (iblk m c 0 t : Vec F S1x2048x128 .f32) (ix3 (0 : Fin 1) q d) = V m c main_arg0 (ix3 (batch t) q d) := by
  unfold iblk
  rw [View.read_apply]
  show V m c main_arg0 _ = V m c main_arg0 _
  refine congrArg (V m c main_arg0) (funext fun a => Fin.ext ?_)
  obtain ⟨⟨h0, h1, h2⟩, -⟩ := idx_facts t
  match a with
  | ⟨0, _⟩ => show win0_0.index t (0 : Fin 3) * 1 + 1 * 0 = t.val / 4; rw [h0]; omega
  | ⟨1, _⟩ => show win0_0.index t (1 : Fin 3) * 2048 + 1 * q.val = q.val; rw [h1]; omega
  | ⟨2, _⟩ => show win0_0.index t (2 : Fin 3) * 128 + 1 * d.val = d.val; rw [h2]; omega

/-- The key block at (0, k, d) is the second argument at (batch, row k of the tile, d). -/
theorem blk1_apply (c : Dev nD) (t : Fin cfg0.N) (k : Fin 512) (d : Fin 128) :
    (iblk m c 1 t : Vec F S1x512x128 .f32) (ix3 (0 : Fin 1) k d) = V m c main_arg1 (ix3 (batch t) (row t k) d) := by
  unfold iblk
  rw [View.read_apply]
  show V m c main_arg1 _ = V m c main_arg1 _
  refine congrArg (V m c main_arg1) (funext fun a => Fin.ext ?_)
  obtain ⟨-, ⟨h0, h1, h2⟩, -⟩ := idx_facts t
  match a with
  | ⟨0, _⟩ => show win0_1.index t (0 : Fin 3) * 1 + 1 * 0 = t.val / 4; rw [h0]; omega
  | ⟨1, _⟩ => show win0_1.index t (1 : Fin 3) * 512 + 1 * k.val = 512 * (t.val % 4) + k.val; rw [h1]; omega
  | ⟨2, _⟩ => show win0_1.index t (2 : Fin 3) * 128 + 1 * d.val = d.val; rw [h2]; omega

/-- The value block at (0, k, v) is the third argument at (batch, row k of the tile, v). -/
theorem blk2_apply (c : Dev nD) (t : Fin cfg0.N) (k : Fin 512) (v : Fin 128) :
    (iblk m c 2 t : Vec F S1x512x128 .f32) (ix3 (0 : Fin 1) k v) = V m c main_arg2 (ix3 (batch t) (row t k) v) := by
  unfold iblk
  rw [View.read_apply]
  show V m c main_arg2 _ = V m c main_arg2 _
  refine congrArg (V m c main_arg2) (funext fun a => Fin.ext ?_)
  obtain ⟨-, -, ⟨h0, h1, h2⟩, -⟩ := idx_facts t
  match a with
  | ⟨0, _⟩ => show win0_2.index t (0 : Fin 3) * 1 + 1 * 0 = t.val / 4; rw [h0]; omega
  | ⟨1, _⟩ => show win0_2.index t (1 : Fin 3) * 512 + 1 * k.val = 512 * (t.val % 4) + k.val; rw [h1]; omega
  | ⟨2, _⟩ => show win0_2.index t (2 : Fin 3) * 128 + 1 * v.val = v.val; rw [h2]; omega

/-- The mask block at (0, q, k) is the converted mask at (batch, q, column k of the tile). -/
theorem blk3_apply (c : Dev nD) (t : Fin cfg0.N) (q : Fin 2048) (k : Fin 512) :
    (iblk m c 3 t : Vec F S1x2048x512 .i32) (ix3 (0 : Fin 1) q k) = V m c main_v0 (ix3 (batch t) q (row t k)) := by
  unfold iblk
  rw [View.read_apply]
  show V m c main_v0 _ = V m c main_v0 _
  refine congrArg (V m c main_v0) (funext fun a => Fin.ext ?_)
  obtain ⟨-, -, -, ⟨h0, h1, h2⟩, -⟩ := idx_facts t
  match a with
  | ⟨0, _⟩ => show win0_3.index t (0 : Fin 3) * 1 + 1 * 0 = t.val / 4; rw [h0]; omega
  | ⟨1, _⟩ => show win0_3.index t (1 : Fin 3) * 2048 + 1 * q.val = q.val; rw [h1]; omega
  | ⟨2, _⟩ => show win0_3.index t (2 : Fin 3) * 512 + 1 * k.val = 512 * (t.val % 4) + k.val; rw [h2]; omega

/-- The mask reaches the region as the one-bit argument widened to a 32-bit word. -/
theorem V_main_v0 (c : Dev nD) :
    (V m c main_v0 : S16x2048x2048.Idx → BitVec 32) = extui 32 (m ((c : Thread nD τ).loc main_arg3)) natLt_1_32 := by
  dsimp only [V, hostOps0]
  after_results

end Cert.KernelIdeal.Blocks

end
-- ==== Proof.SpecReal.lean ====
/-
  The specification over real data. When the three float arguments and the two constants are real numbers, every
  quantity of the specification is one: the scaled scores `sr`, the row maximum (the maximum from -∞ of a nonempty
  row of reals is their maximum), the shifted exponentials, the normalizer (positive: a sum of exponentials), and the
  output entry, which is the coercion of the softmax-weighted sum ∑ exp (s − max) / (∑ exp (s − max)) · w with the
  weights `wr` = (the rescale where the mask keeps the key, else 0) · the value entry.
-/
import proofs.«142846_j39676907883517_2_alg».proof.Proof.Spec
import proofs.«142846_j39676907883517_2_alg».proof.Proof.LibCoe
import proofs.«142846_j39676907883517_2_alg».proof.Proof.OnlineSoftmax

noncomputable section

namespace Cert.Attention

open Idealize.ShloMosaic Idealize.ShloMosaic.ValueIdx
open Cert.LibCoe
open Cert.OnlineSoftmax (rmax)

/-- Row `q` of batch `b`: its 2048 scaled scores, as reals. -/
def sr (r1 r2 : SA.Idx → ℝ) (rs : ℝ) (b : Fin 16) (q : Fin 2048) : Fin 2048 → ℝ :=
  fun K => (∑ d : Fin 128, r1 (ix3 b q d) * r2 (ix3 b K d)) * rs

/-- The weight key `K` carries into output entry (b, q, v): the rescale where the mask keeps it, else 0, times the value entry. -/
def wr (MK : SK.Idx → BitVec 1) (r3 : SA.Idx → ℝ) (rk : ℝ) (b : Fin 16) (q : Fin 2048) (v : Fin 128) : Fin 2048 → ℝ :=
  fun K => (if MK (ix3 b q K) = 1#1 then rk else 0) * r3 (ix3 b K v)

/-- A masked, rescaled real times a real value: the select chooses between the rescale and zero. -/
theorem select_mul_coe (bit : BitVec 1) (a rk x : ℝ) :
    Scalar.select bit ((a : EReal) * (rk : EReal)) (0 : EReal) * (x : EReal)
      = ((a * ((if bit = 1#1 then rk else 0) * x) : ℝ) : EReal) := by
  by_cases h : bit = 1#1
  · rw [h, select_one, if_pos rfl, ← EReal.coe_mul, ← EReal.coe_mul, mul_assoc]
  · rw [eq_zero_of_ne_one h, select_zero, if_neg (by decide), zero_mul, zero_mul, mul_zero, EReal.coe_zero]

section
variable (r1 r2 r3 : SA.Idx → ℝ) (MK : SK.Idx → BitVec 1) (rs rk : ℝ) (hs : scale = (rs : EReal)) (hk : keep = (rk : EReal))
include hs

theorem score_coe (b : Fin 16) (q K : Fin 2048) :
    score (fun i => (r1 i : EReal)) (fun i => (r2 i : EReal)) b q K = ((sr r1 r2 rs b q K : ℝ) : EReal) := by
  unfold score sr
  rw [hs, EReal.coe_mul, coe_sum]
  refine congrArg (· * (rs : EReal)) (Finset.sum_congr rfl fun d _ => ?_)
  rw [EReal.coe_mul]

theorem rowMax_coe (b : Fin 16) (q : Fin 2048) :
    rowMax (fun i => (r1 i : EReal)) (fun i => (r2 i : EReal)) b q = ((rmax (sr r1 r2 rs b q) : ℝ) : EReal) := by
  unfold rowMax
  rw [negInf_eq, show (fun k => score (fun i => (r1 i : EReal)) (fun i => (r2 i : EReal)) b q k)
      = fun k => ((sr r1 r2 rs b q k : ℝ) : EReal) from funext (score_coe r1 r2 rs hs b q), fold_max_coe, max_bot_left]
  rfl

theorem expo_coe (b : Fin 16) (q K : Fin 2048) :
    expo (fun i => (r1 i : EReal)) (fun i => (r2 i : EReal)) b q K
      = ((Real.exp (sr r1 r2 rs b q K - rmax (sr r1 r2 rs b q)) : ℝ) : EReal) := by
  unfold expo
  rw [score_coe r1 r2 rs hs, rowMax_coe r1 r2 rs hs, ← EReal.coe_sub, exp_coe]

theorem denom_coe (b : Fin 16) (q : Fin 2048) :
    denom (fun i => (r1 i : EReal)) (fun i => (r2 i : EReal)) b q
      = ((∑ K : Fin 2048, Real.exp (sr r1 r2 rs b q K - rmax (sr r1 r2 rs b q)) : ℝ) : EReal) := by
  unfold denom
  rw [zero_eq, zero_add, coe_sum]
  exact Finset.sum_congr rfl fun K _ => expo_coe r1 r2 rs hs b q K

theorem denom_pos (b : Fin 16) (q : Fin 2048) :
    0 < ∑ K : Fin 2048, Real.exp (sr r1 r2 rs b q K - rmax (sr r1 r2 rs b q)) :=
  Finset.sum_pos (fun _ _ => Real.exp_pos _) Finset.univ_nonempty

include hk

/-- The specification's entry (b, q, v) over real data: the softmax-weighted sum of the weights. -/
theorem out_coe (b : Fin 16) (q : Fin 2048) (v : Fin 128) :
    out (fun i => (r1 i : EReal)) (fun i => (r2 i : EReal)) (fun i => (r3 i : EReal)) MK (ix3 b q v)
      = ((∑ K : Fin 2048, Real.exp (sr r1 r2 rs b q K - rmax (sr r1 r2 rs b q))
            / (∑ K' : Fin 2048, Real.exp (sr r1 r2 rs b q K' - rmax (sr r1 r2 rs b q))) * wr MK r3 rk b q v K : ℝ) : EReal) := by
  unfold out
  rw [coe_sum]
  refine Finset.sum_congr rfl fun K _ => ?_
  show prob (fun i => (r1 i : EReal)) (fun i => (r2 i : EReal)) MK b q K * (r3 (ix3 b K v) : EReal) = _
  unfold prob
  rw [expo_coe r1 r2 rs hs, denom_coe r1 r2 rs hs, div_coe_coe _ _ (ne_of_gt (denom_pos r1 r2 rs hs b q)), hk, zero_eq,
    select_mul_coe]
  rfl

end

end Cert.Attention

end
-- ==== Proof.Invariant.lean ====
/-
  What the three carried buffers hold after every grid point, and what a batch's last point writes back.

  The grid runs batch by batch, four key tiles to a batch: point n is tile n % 4 of batch n / 4. With the three float
  arguments real-valued, after point n the buffers hold — row by row, as coercions of reals — the streaming softmax's
  state for that batch's rows after tiles 0 … n % 4: the running maximum, the normalizer, the weighted sum
  (`Holds`, by induction on the point: a batch's first point starts from the reset values, every other point from what
  the point before left). So the block a batch's last point writes back is the weighted sum over the normalizer after
  the fourth tile, entry by entry.
-/
import proofs.«142846_j39676907883517_2_alg».proof.Proof.Gen.KernelIdeal.Value
import proofs.«142846_j39676907883517_2_alg».proof.Proof.Pieces
import proofs.«142846_j39676907883517_2_alg».proof.Proof.StreamStep
import proofs.«142846_j39676907883517_2_alg».proof.Proof.Blocks
import proofs.«142846_j39676907883517_2_alg».proof.Proof.SpecReal

set_option maxRecDepth 16384

noncomputable section

namespace Cert.KernelIdeal.Final

open Cert.KernelIdeal Cert.KernelIdeal.Gen Cert.KernelIdeal.Stream Cert.KernelIdeal.Blocks
open Idealize.ShloMosaic Idealize.ShloMosaic.TcCoe Idealize.SL.Sem Idealize.ShloMosaic.ValueIdx
open Cert.Attention (SA SK scale keep sr wr)
open Cert.OnlineSoftmax (key tile Mx Lsum Asum)

variable (m : (ℓ : Loc nD τ sig) → Buf (Elt Ideal) ℓ) (c : Dev nD)

/-- What the point before `t` left (at a batch's first point: never read). -/
abbrev prev (t : Fin cfg0.N) := outsAt0 m c (t.val - 1) (Nat.lt_of_le_of_lt (Nat.sub_le _ _) t.isLt)

/-! ## The three cases' contents, as the tile update -/

theorem at_first (t : Fin cfg0.N) (h0 : t.val % 4 = 0) (h1 : ¬t.val % 4 = 3) :
    (outsAt0 m c t.val t.isLt).2.1 = nextMax (iblk m c 0 t) (iblk m c 1 t) resetMax
    ∧ (outsAt0 m c t.val t.isLt).2.2.1 = nextNorm (iblk m c 0 t) (iblk m c 1 t) resetMax resetNorm
    ∧ (outsAt0 m c t.val t.isLt).2.2.2 = nextAcc (iblk m c 0 t) (iblk m c 1 t) (iblk m c 2 t) (iblk m c 3 t) resetMax resetAcc := by
  rw [outsAt0_A m c t h0 h1]
  dsimp only
  exact ⟨sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sout_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

theorem at_middle (t : Fin cfg0.N) (h0 : ¬t.val % 4 = 0) (h1 : ¬t.val % 4 = 3) :
    (outsAt0 m c t.val t.isLt).2.1 = nextMax (iblk m c 0 t) (iblk m c 1 t) (prev m c t).2.1
    ∧ (outsAt0 m c t.val t.isLt).2.2.1 = nextNorm (iblk m c 0 t) (iblk m c 1 t) (prev m c t).2.1 (prev m c t).2.2.1
    ∧ (outsAt0 m c t.val t.isLt).2.2.2
        = nextAcc (iblk m c 0 t) (iblk m c 1 t) (iblk m c 2 t) (iblk m c 3 t) (prev m c t).2.1 (prev m c t).2.2.2 := by
  rw [outsAt0_B m c t h0 h1]
  dsimp only
  exact ⟨sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2,
    sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2,
    sout_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.1 (prev m c t).2.2.1 (prev m c t).2.2.2⟩

theorem at_last (t : Fin cfg0.N) (h0 : ¬t.val % 4 = 0) (h1 : t.val % 4 = 3) :
    (outsAt0 m c t.val t.isLt).2.1 = nextMax (iblk m c 0 t) (iblk m c 1 t) (prev m c t).2.1
    ∧ (outsAt0 m c t.val t.isLt).2.2.1 = nextNorm (iblk m c 0 t) (iblk m c 1 t) (prev m c t).2.1 (prev m c t).2.2.1
    ∧ (outsAt0 m c t.val t.isLt).2.2.2
        = nextAcc (iblk m c 0 t) (iblk m c 1 t) (iblk m c 2 t) (iblk m c 3 t) (prev m c t).2.1 (prev m c t).2.2.2 := by
  rw [outsAt0_C m c t h0 h1]
  dsimp only
  exact ⟨sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2,
    sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2,
    sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2⟩

/-! ## The real data, and what a point's blocks hold of it -/

/-- The mask argument, one bit per (batch, query, key). -/
abbrev MK : SK.Idx → BitVec 1 := m ((c : Thread nD τ).loc main_arg3)

/-- Real witnesses of the three float arguments and of the two constants. -/
structure RealData where
  r1 : SA.Idx → ℝ
  r2 : SA.Idx → ℝ
  r3 : SA.Idx → ℝ
  rs : ℝ
  rk : ℝ
  h1 : ∀ i : SA.Idx, (m ((c : Thread nD τ).loc main_arg0) : SA.Idx → EReal) i = (r1 i : EReal)
  h2 : ∀ i : SA.Idx, (m ((c : Thread nD τ).loc main_arg1) : SA.Idx → EReal) i = (r2 i : EReal)
  h3 : ∀ i : SA.Idx, (m ((c : Thread nD τ).loc main_arg2) : SA.Idx → EReal) i = (r3 i : EReal)
  hs : scale = (rs : EReal)
  hk : keep = (rk : EReal)

variable {m c} (D : RealData m c)

/-- Row `q` of batch `b` as the stream meets it, tile by tile: its scores … -/
abbrev S (b : Fin 16) (q : Fin 2048) : ℕ → Fin 512 → ℝ := tile (sr D.r1 D.r2 D.rs b q)
/-- … and the weights into output column `v`. -/
abbrev U (b : Fin 16) (q : Fin 2048) (v : Fin 128) : ℕ → Fin 512 → ℝ := tile (wr (MK m c) D.r3 D.rk b q v)

/-- The batch of point number `n`, total in `n`. -/
def bat (n : ℕ) : Fin 16 := ⟨(n / 4) % 16, Nat.mod_lt _ (by norm_num)⟩

theorem batch_eq (t : Fin cfg0.N) : batch t = bat t.val :=
  Fin.ext (by
    have h := t.isLt
    have hN : cfg0.N = 64 := N_0
    show t.val / 4 = (t.val / 4) % 16
    omega)

theorem row_eq_key (t : Fin cfg0.N) (k : Fin 512) : row t k = key (t.val % 4) k :=
  Fin.ext (by
    have hk := k.isLt
    show 512 * (t.val % 4) + k.val = (512 * (t.val % 4) + k.val) % 2048
    omega)

/-- The point's scaled scores are the row's scores at the tile's keys. -/
theorem tileScore_at (t : Fin cfg0.N) (b : Fin 16) (j : ℕ) (hb : batch t = b) (hj : t.val % 4 = j) (q : Fin 2048) (k : Fin 512) :
    tileScore (iblk m c 0 t) (iblk m c 1 t) q k = ((S D b q j k : ℝ) : EReal) := by
  subst hb hj
  show _ = ((sr D.r1 D.r2 D.rs (batch t) q (key (t.val % 4) k) : ℝ) : EReal)
  rw [← row_eq_key]
  unfold tileScore sr
  rw [D.hs, EReal.coe_mul, Cert.LibCoe.coe_sum]
  refine congrArg (· * (D.rs : EReal)) (Finset.sum_congr rfl fun d _ => ?_)
  rw [EReal.coe_mul]
  exact congrArg₂ (· * ·) ((blk0_apply m c t q d).trans ((congrFun (V_main_arg0 m c) _).trans (D.h1 _)))
    ((blk1_apply m c t k d).trans ((congrFun (V_main_arg1 m c) _).trans (D.h2 _)))

/-- A one-bit word widened to 32 bits is nonzero exactly when the bit is set. -/
theorem bit_of_word (b : BitVec 1) : IntOp.cmpi .ne (b.setWidth 32) 0#32 = b := by
  revert b
  decide

/-- The point's masked, rescaled exponential times its value entry is the exponential times the row's weight. -/
theorem weight_at (t : Fin cfg0.N) (b : Fin 16) (j : ℕ) (hb : batch t = b) (hj : t.val % 4 = j) (q : Fin 2048) (v : Fin 128)
    (k : Fin 512) (e : ℝ) :
    Scalar.select (maskBit (iblk m c 3 t) q k) ((e : EReal) * keep) (0 : EReal)
        * (iblk m c 2 t : Vec Ideal S1x512x128 .f32) (ix3 (0 : Fin 1) k v)
      = ((e * U D b q v j k : ℝ) : EReal) := by
  subst hb hj
  show _ = ((e * wr (MK m c) D.r3 D.rk (batch t) q v (key (t.val % 4) k) : ℝ) : EReal)
  rw [← row_eq_key]
  have hbit : maskBit (iblk m c 3 t) q k = MK m c (ix3 (batch t) q (row t k)) := by
    unfold maskBit
    refine (congrArg (fun w => IntOp.cmpi .ne w 0#32) ((blk3_apply m c t q k).trans (congrFun (V_main_v0 m c) _))).trans ?_
    exact bit_of_word _
  have hx : (iblk m c 2 t : Vec Ideal S1x512x128 .f32) (ix3 (0 : Fin 1) k v) = ((D.r3 (ix3 (batch t) (row t k) v) : ℝ) : EReal) :=
    (blk2_apply m c t k v).trans ((congrFun (V_main_arg2 m c) _).trans (D.h3 _))
  rw [hbit, hx, D.hk, Cert.Attention.select_mul_coe]
  rfl

/-! ## The invariant -/

/-- After point `n`: the carried buffers hold the stream's state of batch `n / 4` after tile `n % 4`, row by row. -/
structure Holds (n : ℕ)
    (o : Vec Ideal S1x2048x128 .f32 × Vec Ideal S2048x1 .f32 × Vec Ideal S2048x1 .f32 × Vec Ideal S2048x128 .f32) : Prop where
  mx : ∀ q : Fin 2048, o.2.1 (ix2 q (0 : Fin 1)) = ((Mx (S D (bat n) q) (n % 4) : ℝ) : EReal)
  nm : ∀ q : Fin 2048, o.2.2.1 (ix2 q (0 : Fin 1)) = ((Lsum (S D (bat n) q) (n % 4) : ℝ) : EReal)
  ac : ∀ (q : Fin 2048) (v : Fin 128),
    o.2.2.2 (ix2 q v) = ((Asum (S D (bat n) q) (U D (bat n) q v) (n % 4) : ℝ) : EReal)

/-- A batch's first point establishes it from the reset values. -/
theorem holds_first (t : Fin cfg0.N) (h0 : t.val % 4 = 0) : Holds D t.val (outsAt0 m c t.val t.isLt) := by
  have h1 : ¬t.val % 4 = 3 := by omega
  obtain ⟨e0, e1, e2⟩ := at_first m c t h0 h1
  have hb : batch t = bat t.val := batch_eq t
  refine ⟨fun q => ?_, fun q => ?_, fun q v => ?_⟩
  · rw [e0, h0]
    exact first_max (iblk m c 0 t) (iblk m c 1 t) (S D (bat t.val) q) q (fun k => tileScore_at D t (bat t.val) 0 hb h0 q k)
  · rw [e1, h0]
    exact first_norm (iblk m c 0 t) (iblk m c 1 t) (S D (bat t.val) q) q (fun k => tileScore_at D t (bat t.val) 0 hb h0 q k)
  · rw [e2, h0]
    exact first_acc (iblk m c 0 t) (iblk m c 1 t) (iblk m c 2 t) (iblk m c 3 t) (S D (bat t.val) q) (U D (bat t.val) q v) q v
      (fun k => tileScore_at D t (bat t.val) 0 hb h0 q k) (fun k e => weight_at D t (bat t.val) 0 hb h0 q v k e)

/-- Every other point carries it one tile further. -/
theorem holds_later (t : Fin cfg0.N) (h0 : ¬t.val % 4 = 0) (ihp : Holds D (t.val - 1) (prev m c t))
    (e : (outsAt0 m c t.val t.isLt).2.1 = nextMax (iblk m c 0 t) (iblk m c 1 t) (prev m c t).2.1
      ∧ (outsAt0 m c t.val t.isLt).2.2.1 = nextNorm (iblk m c 0 t) (iblk m c 1 t) (prev m c t).2.1 (prev m c t).2.2.1
      ∧ (outsAt0 m c t.val t.isLt).2.2.2
          = nextAcc (iblk m c 0 t) (iblk m c 1 t) (iblk m c 2 t) (iblk m c 3 t) (prev m c t).2.1 (prev m c t).2.2.2) :
    Holds D t.val (outsAt0 m c t.val t.isLt) := by
  obtain ⟨e0, e1, e2⟩ := e
  have hbat : bat t.val = bat (t.val - 1) := Fin.ext (by
    show (t.val / 4) % 16 = ((t.val - 1) / 4) % 16
    omega)
  have hj : t.val % 4 = (t.val - 1) % 4 + 1 := by omega
  have hb : batch t = bat (t.val - 1) := (batch_eq t).trans hbat
  refine ⟨fun q => ?_, fun q => ?_, fun q v => ?_⟩
  · rw [e0, hj, hbat]
    exact later_max (iblk m c 0 t) (iblk m c 1 t) (S D (bat (t.val - 1)) q) ((t.val - 1) % 4) (prev m c t).2.1 q (ihp.mx q)
      (fun k => tileScore_at D t (bat (t.val - 1)) _ hb hj q k)
  · rw [e1, hj, hbat]
    exact later_norm (iblk m c 0 t) (iblk m c 1 t) (S D (bat (t.val - 1)) q) ((t.val - 1) % 4) (prev m c t).2.1 (prev m c t).2.2.1 q
      (ihp.mx q) (ihp.nm q) (fun k => tileScore_at D t (bat (t.val - 1)) _ hb hj q k)
  · rw [e2, hj, hbat]
    exact later_acc (iblk m c 0 t) (iblk m c 1 t) (iblk m c 2 t) (iblk m c 3 t) (S D (bat (t.val - 1)) q) (U D (bat (t.val - 1)) q v)
      ((t.val - 1) % 4) (prev m c t).2.1 (prev m c t).2.2.2 q v (ihp.mx q) (ihp.ac q v)
      (fun k => tileScore_at D t (bat (t.val - 1)) _ hb hj q k) (fun k e => weight_at D t (bat (t.val - 1)) _ hb hj q v k e)

/-- The invariant holds after every point, by induction on the point. -/
theorem holds (n : ℕ) : ∀ h : n < cfg0.N, Holds D n (outsAt0 m c n h) := by
  induction n with
  | zero => exact fun h => holds_first D ⟨0, h⟩ rfl
  | succ n ih =>
    intro h
    by_cases h0 : (n + 1) % 4 = 0
    · exact holds_first D ⟨n + 1, h⟩ h0
    · have ihn := ih (Nat.lt_of_succ_lt h)
      by_cases h1 : (n + 1) % 4 = 3
      · exact holds_later D ⟨n + 1, h⟩ h0 ihn (at_last m c ⟨n + 1, h⟩ h0 h1)
      · exact holds_later D ⟨n + 1, h⟩ h0 ihn (at_middle m c ⟨n + 1, h⟩ h0 h1)

end Cert.KernelIdeal.Final

end
-- ==== Proof.KernelValue.lean ====
/-
  The kernel's result array. A batch's last point (tile 3) stores the output block — the weighted sums over the
  normalizers after the fourth tile — and the pipeline writes it back to the batch's [2048, 128] slab of the result;
  the sixteen slabs tile the array. So the result array holds, at (b, q, v), the streaming softmax's final quotient
  for row q of batch b and column v.
-/
import proofs.«142846_j39676907883517_2_alg».proof.Proof.Invariant

set_option maxRecDepth 16384

noncomputable section

namespace Cert.KernelIdeal.Final

open Cert.KernelIdeal Cert.KernelIdeal.Gen Cert.KernelIdeal.Stream Cert.KernelIdeal.Blocks
open Idealize.ShloMosaic Idealize.ShloMosaic.TcCoe Idealize.SL.Sem Idealize.ShloMosaic.ValueIdx
open Idealize.ShloMosaic.Pipeline (Dat)
open Cert.Attention (SA SK scale keep sr wr)
open Cert.OnlineSoftmax (key tile Mx Lsum Asum Lsum_pos)

variable {m : (ℓ : Loc nD τ sig) → Buf (Elt Ideal) ℓ} {c : Dev nD} (D : RealData m c)

/-- The result array, entry by entry: the stream's final quotient. -/
def result : SA.Idx → EReal := fun i =>
  ((Asum (S D (i 0) (i 1)) (U D (i 0) (i 1) (i 2)) 3 / Lsum (S D (i 0) (i 1)) 3 : ℝ) : EReal)

/-- At a batch's last point the body stores the updated weighted sums over the updated normalizers. -/
theorem at_last_out (t : Fin cfg0.N) (h0 : ¬t.val % 4 = 0) (h1 : t.val % 4 = 3) :
    (outsAt0 m c t.val t.isLt).1
      = quotient (nextAcc (iblk m c 0 t) (iblk m c 1 t) (iblk m c 2 t) (iblk m c 3 t) (prev m c t).2.1 (prev m c t).2.2.2)
          (nextNorm (iblk m c 0 t) (iblk m c 1 t) (prev m c t).2.1 (prev m c t).2.2.1) := by
  rw [outsAt0_C m c t h0 h1]
  dsimp only
  exact out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.1 (prev m c t).2.2.1 (prev m c t).2.2.2

/-- The output block of a batch's last point, entry by entry. -/
theorem last_out (t : Fin cfg0.N) (h3 : t.val % 4 = 3) (u : Fin 1) (q : Fin 2048) (v : Fin 128) :
    (outsAt0 m c t.val t.isLt).1 (ix3 u q v)
      = ((Asum (S D (bat t.val) q) (U D (bat t.val) q v) 3 / Lsum (S D (bat t.val) q) 3 : ℝ) : EReal) := by
  have h0 : ¬t.val % 4 = 0 := by omega
  obtain rfl : u = 0 := Subsingleton.elim _ _
  obtain ⟨-, e1, e2⟩ := at_last m c t h0 h3
  have hH := holds D t.val t.isLt
  have hac := hH.ac q v
  have hnm := hH.nm q
  rw [h3] at hac hnm
  rw [at_last_out t h0 h3, ← e2, ← e1]
  exact quotient_coe _ _ q v _ _ (ne_of_gt (Lsum_pos _ _)) hac hnm

/-- What a batch's last point writes back is its block of the result. -/
theorem flushed_eq (t : Fin cfg0.N) (hf : (cfg0.win 4).flush t = true) :
    (dats m 0 c).flushed 4 t = ((cfg0.win 4).blk t).view.read (Elt Ideal) (result D) := by
  have h3 : t.val % 4 = 3 := (flush0_4 t).mp hf
  rw [Cert.KernelIdeal.Value.flushed4]
  refine funext fun y => ?_
  have hy0 : (y 0).val < 1 := (y 0).isLt
  have hy1 : (y 1).val < 2048 := (y 1).isLt
  have hy2 : (y 2).val < 128 := (y 2).isLt
  obtain ⟨-, -, -, -, ⟨i0, i1, i2⟩⟩ := idx_facts t
  have hemb : ((cfg0.win 4).blk t).view.emb y = ix3 (batch t) (⟨(y 1).val, hy1⟩ : Fin 2048) (⟨(y 2).val, hy2⟩ : Fin 128) := by
    funext a; apply Fin.ext
    match a with
    | ⟨0, _⟩ => show win0_4.index t (0 : Fin 3) * 1 + 1 * (y 0).val = t.val / 4; rw [i0]; omega
    | ⟨1, _⟩ => show win0_4.index t (1 : Fin 3) * 2048 + 1 * (y 1).val = (y 1).val; rw [i1]; omega
    | ⟨2, _⟩ => show win0_4.index t (2 : Fin 3) * 128 + 1 * (y 2).val = (y 2).val; rw [i2]; omega
  have hinj : (cfg0.win 4).xinj (grid0.coords t) y
      = ix3 (⟨(y 0).val, hy0⟩ : Fin 1) (⟨(y 1).val, hy1⟩ : Fin 2048) (⟨(y 2).val, hy2⟩ : Fin 128) := by
    funext a; apply Fin.ext
    match a with
    | ⟨0, _⟩ => rfl
    | ⟨1, _⟩ => rfl
    | ⟨2, _⟩ => rfl
  show (outsAt0 m c t.val t.isLt).1 ((cfg0.win 4).xinj (grid0.coords t) y) = result D (((cfg0.win 4).blk t).view.emb y)
  rw [hinj, hemb, last_out D t h3, batch_eq t]
  rfl

/-- Every index of the result lies in the block some batch's last point writes back. -/
theorem cover (i : S16x2048x128.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 128 := (i 2).isLt
  have hN : cfg0.N = 64 := N_0
  have hlt : 4 * (i 0).val + 3 < cfg0.N := by omega
  refine ⟨⟨4 * (i 0).val + 3, hlt⟩, (flush0_4 _).mpr (by show (4 * (i 0).val + 3) % 4 = 3; omega), ?_⟩
  obtain ⟨-, -, -, -, ⟨i0, i1, i2⟩⟩ := idx_facts (⟨4 * (i 0).val + 3, hlt⟩ : Fin cfg0.N)
  have j0 : win0_4.index (⟨4 * (i 0).val + 3, hlt⟩ : Fin cfg0.N) (0 : Fin 3) = (i 0).val := by
    rw [i0]; show (4 * (i 0).val + 3) / 4 = (i 0).val; omega
  show i ∈ ((View.whole main_v1).slice (win0_4.rect (⟨4 * (i 0).val + 3, hlt⟩ : Fin cfg0.N))).set
  rw [View.set_slice_whole, Rect.mem_set_unit]
  intro a
  match a with
  | ⟨0, _⟩ =>
    show win0_4.index (⟨4 * (i 0).val + 3, hlt⟩ : Fin cfg0.N) (0 : Fin 3) * 1 ≤ (i 0).val
      ∧ (i 0).val < win0_4.index (⟨4 * (i 0).val + 3, hlt⟩ : Fin cfg0.N) (0 : Fin 3) * 1 + 1
    rw [j0]; omega
  | ⟨1, _⟩ =>
    show win0_4.index (⟨4 * (i 0).val + 3, hlt⟩ : Fin cfg0.N) (1 : Fin 3) * 2048 ≤ (i 1).val
      ∧ (i 1).val < win0_4.index (⟨4 * (i 0).val + 3, hlt⟩ : Fin cfg0.N) (1 : Fin 3) * 2048 + 2048
    rw [i1]; omega
  | ⟨2, _⟩ =>
    show win0_4.index (⟨4 * (i 0).val + 3, hlt⟩ : Fin cfg0.N) (2 : Fin 3) * 128 ≤ (i 2).val
      ∧ (i 2).val < win0_4.index (⟨4 * (i 0).val + 3, hlt⟩ : Fin cfg0.N) (2 : Fin 3) * 128 + 128
    rw [i2]; omega

/-- The result array after the run holds the stream's final quotients. -/
theorem final : (dats m 0 c).arrAt 4 cfg0.N = result D :=
  (dats m 0 c).arrAt_eq_of_cover 4 (result D) (fun t hf => flushed_eq D t hf) cover

end Cert.KernelIdeal.Final

end
-- ==== Proof.RefIsSpec.lean ====
/-
  The reference program computes the specification: read one operation at a time at an output entry
  (b, q, v), the first einsum times the scale, the softmax, the dropout rescale and the second einsum are
  `Cert.Attention.out`.

  The steps, each read at coordinates: the scaled score at (b, q, k); the row maximum at (b, q), where
  the max-reduce over the key axis is a fold of `max` over that axis's coordinates; the shifted
  exponential at (b, q, k); the normalizer at (b, q); the kept and rescaled probability at (b, q, k);
  and the result at (b, q, v), the sum over the keys of probability times value.
-/
import proofs.«142846_j39676907883517_2_alg».proof.Proof.Gen.ReferenceIdeal.Read
import proofs.«142846_j39676907883517_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The key axis of the score array is reduced away: [16, 2048, 2048] over axis 2 leaves [16, 2048]. -/
theorem hred : S16x2048x2048.Reduces [2] S16x2048 := by decide

/-- The score index (b, q) with key coordinate `k` put back on the reduced axis is (b, q, k). -/
theorem lift_eq (b : Fin 16) (q k : Fin 2048) : hred.lift (ix2 b q) k = ix3 b q k :=
  funext fun a => Fin.ext (by match a with | ⟨0, _⟩ => rfl | ⟨1, _⟩ => rfl | ⟨2, _⟩ => rfl)

/-- The first einsum's operand indices at output (b, q, k) and feature `d`: (b, q, d) and (b, k, d). -/
theorem lidx0_eq (b : Fin 16) (q k : Fin 2048) (d : Fin 128) : lidx_main_v0 (ix3 b q k) d = ix3 b q d :=
  funext fun a => Fin.ext (by match a with | ⟨0, _⟩ => rfl | ⟨1, _⟩ => rfl | ⟨2, _⟩ => rfl)
theorem ridx0_eq (b : Fin 16) (q k : Fin 2048) (d : Fin 128) : ridx_main_v0 (ix3 b q k) d = ix3 b k d :=
  funext fun a => Fin.ext (by match a with | ⟨0, _⟩ => rfl | ⟨1, _⟩ => rfl | ⟨2, _⟩ => rfl)

/-- The keepdims broadcasts read (b, q, k) back at (b, q). -/
theorem idx67_eq (b : Fin 16) (q k : Fin 2048) : idx_main_v6 (idx_main_v7 (ix3 b q k)) = ix2 b q :=
  funext fun a => Fin.ext (by match a with | ⟨0, _⟩ => rfl | ⟨1, _⟩ => rfl)
theorem idx1112_eq (b : Fin 16) (q k : Fin 2048) : idx_main_v11 (idx_main_v12 (ix3 b q k)) = ix2 b q :=
  funext fun a => Fin.ext (by match a with | ⟨0, _⟩ => rfl | ⟨1, _⟩ => rfl)

/-- The sum over the keys reads (b, q) at (b, q, k). -/
theorem idx10_eq (b : Fin 16) (q k : Fin 2048) : idx_main_v10 (ix2 b q) k = ix3 b q k :=
  funext fun a => Fin.ext (by match a with | ⟨0, _⟩ => rfl | ⟨1, _⟩ => rfl | ⟨2, _⟩ => rfl)

/-- The second einsum's operand indices at output (b, q, v) and key `k`: (b, q, k) and (b, k, v). -/
theorem lidx17_eq (b : Fin 16) (q : Fin 2048) (v : Fin 128) (k : Fin 2048) : lidx_main_v17 (ix3 b q v) k = ix3 b q k :=
  funext fun a => Fin.ext (by match a with | ⟨0, _⟩ => rfl | ⟨1, _⟩ => rfl | ⟨2, _⟩ => rfl)
theorem ridx17_eq (b : Fin 16) (q : Fin 2048) (v : Fin 128) (k : Fin 2048) : ridx_main_v17 (ix3 b q v) k = ix3 b k v :=
  funext fun a => Fin.ext (by match a with | ⟨0, _⟩ => rfl | ⟨1, _⟩ => rfl | ⟨2, _⟩ => rfl)

/-- The scaled score at (b, q, k): the contraction over the features times the scale word. -/
theorem score_at (x0 x1 : (⟨S16x2048x128, .f32⟩ : BufTy).Contents (Elt Ideal)) (b : Fin 16) (q k : Fin 2048) :
    val_main_v2 (F := Ideal) x0 x1 (ix3 b q k) = Cert.Attention.score x0 x1 b q k := by
  rw [val_main_v2_apply, val_main_v0_apply, val_main_v1_apply, val_main_cst_apply]
  simp only [Ideal.mulf_def, Ideal.ofBits_def, lidx0_eq, ridx0_eq]
  rfl

/-- The row maximum at (b, q): the max-reduce over the key axis is the fold of `max` from the word of -∞ over the
    keys, and the program takes the maximum with -∞ once more. -/
theorem rowMax_at (x0 x1 : (⟨S16x2048x128, .f32⟩ : BufTy).Contents (Elt Ideal)) (b : Fin 16) (q : Fin 2048) :
    val_main_v5 (F := Ideal) x0 x1 (ix2 b q) = Cert.Attention.rowMax x0 x1 b q := by
  have hf : (val_main_v2 (F := Ideal) x0 x1 ∘ hred.lift (ix2 b q)) = fun k : Fin 2048 => Cert.Attention.score x0 x1 b q k :=
    funext fun k => (congrArg (val_main_v2 (F := Ideal) x0 x1) (lift_eq b q k)).trans (score_at x0 x1 b q k)
  rw [val_main_v5_apply, val_main_v4_apply, val_main_cst_1_apply]
  unfold val_main_v3
  rw [Host.reduce_eq_fold_single (FloatOps.maximumf (F := Ideal) (φ := .f32)) (val_main_v2 (F := Ideal) x0 x1)
    (val_main_cst_0 (F := Ideal)) reducesTo_S16x2048x2048_S16x2048_d2 hred h_S_ (ix2 b q), hf]
  rfl

/-- The shifted exponential at (b, q, k). -/
theorem expo_at (x0 x1 : (⟨S16x2048x128, .f32⟩ : BufTy).Contents (Elt Ideal)) (b : Fin 16) (q k : Fin 2048) :
    val_main_v9 (F := Ideal) x0 x1 (ix3 b q k) = Cert.Attention.expo x0 x1 b q k := by
  rw [val_main_v9_apply, val_main_v8_apply, score_at, val_main_v7_apply, val_main_v6_apply, idx67_eq, rowMax_at]
  simp only [Ideal.hostUnary_exp_def, Ideal.subf_def]
  rfl

/-- The normalizer at (b, q): the zero word plus the sum of the exponentials over the keys. -/
theorem denom_at (x0 x1 : (⟨S16x2048x128, .f32⟩ : BufTy).Contents (Elt Ideal)) (b : Fin 16) (q : Fin 2048) :
    val_main_v10 (F := Ideal) x0 x1 (ix2 b q) = Cert.Attention.denom x0 x1 b q := by
  rw [val_main_v10_apply, val_main_cst_2_apply]
  unfold Cert.Attention.denom
  refine congrArg₂ (· + ·) rfl (Finset.sum_congr rfl fun k _ => ?_)
  rw [idx10_eq, expo_at]

/-- The kept, rescaled probability at (b, q, k). -/
theorem prob_at (x0 x1 : (⟨S16x2048x128, .f32⟩ : BufTy).Contents (Elt Ideal))
    (x3 : (⟨S16x2048x2048, .i1⟩ : BufTy).Contents (Elt Ideal)) (b : Fin 16) (q k : Fin 2048) :
    val_main_v16 (F := Ideal) x0 x1 x3 (ix3 b q k) = Cert.Attention.prob x0 x1 x3 b q k := by
  rw [val_main_v16_apply, val_main_v15_apply, val_main_v13_apply, expo_at, val_main_v12_apply, val_main_v11_apply,
    idx1112_eq, denom_at, val_main_v14_apply, val_main_cst_3_apply, val_main_call0_v1_apply, val_main_call0_v0_apply,
    val_main_cst_4_apply]
  simp only [Ideal.mulf_def, Ideal.hostDivf_def, Ideal.ofBits_def]
  rfl

/-- The reference's result, as a function of its four arguments, is the specification. -/
theorem ref_is_out (x0 x1 x2 : (⟨S16x2048x128, .f32⟩ : BufTy).Contents (Elt Ideal))
    (x3 : (⟨S16x2048x2048, .i1⟩ : BufTy).Contents (Elt Ideal)) :
    val_main_v17 (F := Ideal) x0 x1 x2 x3 = Cert.Attention.out x0 x1 x2 x3 := by
  funext i
  obtain ⟨b, q, v, rfl⟩ : ∃ (b : Fin 16) (q : Fin 2048) (v : Fin 128), i = ix3 b q v := ⟨i 0, i 1, i 2, eq_ix3 i⟩
  rw [val_main_v17_apply]
  unfold Cert.Attention.out
  refine Finset.sum_congr rfl fun k _ => ?_
  rw [lidx17_eq, ridx17_eq, prob_at]

end Cert.ReferenceIdeal.RefValue

end
-- ==== Proof.Finite.lean ====
/-
  What the precondition gives: every entry of the three float arguments is a real number.
-/
import proofs.«142846_j39676907883517_2_alg».proof.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

variable [Cert.Pre_finite_inputs.Facts]

/-- The rank-0 shape has exactly one index: a function out of the empty type. -/
instance : Subsingleton S_.Idx := ⟨fun a b => funext fun d => d.elim0⟩

/-- The f32 word `0x7F800000` (sign 0, exponent all ones, fraction 0) denotes `+∞`. -/
theorem ofBits_posInf : Ideal.ofBits .f32 0x7F800000#32 = (⊤ : EReal) := by
  simp [Ideal.ofBits, Ideal.ieee]

/-- On the extended reals, `|x| < +∞` (with `|x| = max x (-x)`) holds only at a real `x`:
    at `x = ⊥` and at `x = ⊤` the maximum is `⊤`, which is not below `⊤`. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- One argument: if the and-reduction over all three axes of the elementwise test `|X i| < +∞` is 1,
    every entry of `X` is a real number. -/
theorem real_of_all (X : FVec Ideal S16x2048x128 .f32)
    (h : Host.reduce IntOp.andi
          (cmpf .olt (Host.absf X)
            (broadcastInDim S16x2048x128 ![] Facts.bcast_S_S16x2048x128 (constant S_ .f32 0x7F800000#32)))
          (constantI S_ 1 1#1) Facts.reducesTo_S16x2048x128_S_d0_1_2 Facts.h_S_ ix0 = 1#1) :
    ∀ i, ∃ r : ℝ, X i = (r : EReal) := by
  intro i
  have hi := Host.reduce_andi_all _ _ _ _ _ h i
  apply real_of_abs_lt_top
  rw [← ofBits_posInf]
  exact hi

/-- If `finite_inputs` evaluates to all ones at the extended reals, each float argument is real-valued everywhere. -/
theorem real_of_pre (X1 X2 X3 : FVec Ideal S16x2048x128 .f32) (MK : IVec S16x2048x2048 1)
    (h : Cert.Pre_finite_inputs.fn (F := Ideal) X1 X2 X3 MK = (fun _ => 1#1)) :
    (∀ i, ∃ r : ℝ, X1 i = (r : EReal)) ∧ (∀ i, ∃ r : ℝ, X2 i = (r : EReal)) ∧ (∀ i, ∃ r : ℝ, X3 i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨real_of_all X1 h1, real_of_all X2 h2, real_of_all X3 h3⟩

end Cert.Pre_finite_inputs.Finite

end
-- ==== Proof.lean ====
/-
  Dropout attention by a streaming softmax equals dropout attention by the plain softmax, over the extended reals,
  for finite inputs.

  The kernel walks each batch's 2048 keys in four tiles of 512, carrying per query row a running maximum m, a
  normalizer l and a weighted sum acc; each tile rescales l and acc by exp (old m − new m), adds the tile's shifted
  exponentials (into acc: masked, rescaled by the f32 word nearest 10/9, times the value rows), and after the fourth
  tile stores acc / l. The reference computes the scaled scores of the whole row, jnp's softmax of them, masks and
  rescales, and multiplies by the values. With every input a real number all quantities are real, the streamed sums
  telescope by exp (a) · exp (b) = exp (a + b) to the whole row's sums relative to the row's maximum, and dividing the
  weighted sum by the normalizer (which is at least 1, so not zero) divides each term: the two results are one
  extended real at every entry. The float literals (1/5, 10/9 as f32 words, -∞, 0) are the same words in both
  programs. The three programs' runs, and that the arguments end unchanged, are the generated frames; the ideal pass
  rewrote nothing, so there is nothing to preserve.
-/
import proofs.«142846_j39676907883517_2_alg».proof.Defs
import proofs.«142846_j39676907883517_2_alg».proof.Proof.Gen.Kernel
import proofs.«142846_j39676907883517_2_alg».proof.Proof.Gen.Kernel.Skeleton
import proofs.«142846_j39676907883517_2_alg».proof.Proof.Gen.Kernel.Launch
import proofs.«142846_j39676907883517_2_alg».proof.Proof.Gen.Kernel.Points
import proofs.«142846_j39676907883517_2_alg».proof.Proof.Gen.Kernel.Frame
import proofs.«142846_j39676907883517_2_alg».proof.Proof.Gen.KernelIdeal
import proofs.«142846_j39676907883517_2_alg».proof.Proof.Gen.KernelIdeal.Skeleton
import proofs.«142846_j39676907883517_2_alg».proof.Proof.Gen.KernelIdeal.Launch
import proofs.«142846_j39676907883517_2_alg».proof.Proof.Gen.KernelIdeal.Points
import proofs.«142846_j39676907883517_2_alg».proof.Proof.Gen.KernelIdeal.Frame
import proofs.«142846_j39676907883517_2_alg».proof.Proof.Gen.KernelIdeal.Value
import proofs.«142846_j39676907883517_2_alg».proof.Proof.Gen.ReferenceIdeal
import proofs.«142846_j39676907883517_2_alg».proof.Proof.Gen.ReferenceIdeal.Run
import proofs.«142846_j39676907883517_2_alg».proof.Proof.Gen.ReferenceIdeal.Read
import proofs.«142846_j39676907883517_2_alg».proof.Proof.Gen.Pre_finite_inputs
import proofs.«142846_j39676907883517_2_alg».proof.Proof.KernelValue
import proofs.«142846_j39676907883517_2_alg».proof.Proof.RefIsSpec
import proofs.«142846_j39676907883517_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal.Final (RealData result MK S U)
open Cert.Attention (SA SK scale keep sr wr)

/-- An extended real that is the coercion of some real is the coercion of its own real part. -/
theorem coe_toReal_of_exists {x : EReal} (h : ∃ r : ℝ, x = (r : EReal)) : x = ((x.toReal : ℝ) : EReal) := by
  obtain ⟨r, rfl⟩ := h
  rfl

/-- Under the precondition every float input entry is real: the real data of the kernel's memory on core `c`. -/
def realData (m : (ℓ : Loc Cert.KernelIdeal.nD Cert.KernelIdeal.τ Cert.KernelIdeal.sig) → Buf (Elt Ideal) ℓ)
    (hpre : Cert.Pre_KernelIdeal m) (c : Dev Cert.KernelIdeal.nD) : RealData m c :=
  have h := Cert.Pre_finite_inputs.Finite.real_of_pre
    (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3)) (hpre c)
  { r1 := fun i => EReal.toReal ((m ((c : Thread Cert.KernelIdeal.nD Cert.KernelIdeal.τ).loc Cert.KernelIdeal.main_arg0) : SA.Idx → EReal) i)
    r2 := fun i => EReal.toReal ((m ((c : Thread Cert.KernelIdeal.nD Cert.KernelIdeal.τ).loc Cert.KernelIdeal.main_arg1) : SA.Idx → EReal) i)
    r3 := fun i => EReal.toReal ((m ((c : Thread Cert.KernelIdeal.nD Cert.KernelIdeal.τ).loc Cert.KernelIdeal.main_arg2) : SA.Idx → EReal) i)
    rs := EReal.toReal scale
    rk := EReal.toReal keep
    h1 := fun i => coe_toReal_of_exists (h.1 i)
    h2 := fun i => coe_toReal_of_exists (h.2.1 i)
    h3 := fun i => coe_toReal_of_exists (h.2.2 i)
    hs := coe_toReal_of_exists Cert.LibCoe.scale_real
    hk := coe_toReal_of_exists Cert.LibCoe.keep_real }

/-- The kernel's run, read: the result array at the stream's final quotients, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c : Thread Cert.KernelIdeal.nD Cert.KernelIdeal.τ).loc Cert.KernelIdeal.main_v1) = result (realData m hpre c)
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3) :=
  (θ_run Cert.KernelIdeal.defs _ _).mono
    (fun r h c => ⟨(h c).1.trans (Cert.KernelIdeal.Final.final (realData m hpre c)), (h c).2⟩)
    (Cert.KernelIdeal.Value.run_blocks (F := Ideal) m ρ)

/-- The bridge: on real inputs the specification's entry is the stream's final quotient. -/
theorem out_eq_result (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Attention.out
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
      = result (realData m hpre c) := by
  have e1 : (m ((c : Thread Cert.KernelIdeal.nD Cert.KernelIdeal.τ).loc Cert.KernelIdeal.main_arg0) : SA.Idx → EReal)
      = fun i => ((realData m hpre c).r1 i : EReal) := funext (realData m hpre c).h1
  have e2 : (m ((c : Thread Cert.KernelIdeal.nD Cert.KernelIdeal.τ).loc Cert.KernelIdeal.main_arg1) : SA.Idx → EReal)
      = fun i => ((realData m hpre c).r2 i : EReal) := funext (realData m hpre c).h2
  have e3 : (m ((c : Thread Cert.KernelIdeal.nD Cert.KernelIdeal.τ).loc Cert.KernelIdeal.main_arg2) : SA.Idx → EReal)
      = fun i => ((realData m hpre c).r3 i : EReal) := funext (realData m hpre c).h3
  funext i
  obtain ⟨b, q, v, rfl⟩ : ∃ (b : Fin 16) (q : Fin 2048) (v : Fin 128), i = ix3 b q v := ⟨i 0, i 1, i 2, eq_ix3 i⟩
  refine (congrFun (congrArg₂ (fun a b => Cert.Attention.out a b _ _) e1 e2) _).trans ?_
  refine (congrFun (congrArg (fun a => Cert.Attention.out _ _ a _) e3) _).trans ?_
  refine (Cert.Attention.out_coe (realData m hpre c).r1 (realData m hpre c).r2 (realData m hpre c).r3 (MK m c)
    (realData m hpre c).rs (realData m hpre c).rk (realData m hpre c).hs (realData m hpre c).hk b q v).trans ?_
  exact congrArg (fun x : ℝ => (x : EReal))
    (Cert.OnlineSoftmax.streaming_eq_softmax (sr (realData m hpre c).r1 (realData m hpre c).r2 (realData m hpre c).rs b q)
      (wr (MK m c) (realData m hpre c).r3 (realData m hpre c).rk b q v)).symm

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the same array: the kernel's at the stream's final quotients, the reference's at the
    specification of arguments that agree, and on real inputs these are one function. -/
theorem algebraic : Cert.algebraic_KernelIdeal_ReferenceIdeal := by
  intro m ρ m' ρ' hpre hagree
  refine ⟨fun c => result (realData m hpre c), kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_is_out,
    (hagree c).1, (hagree c).2.1, (hagree c).2.2.1, (hagree c).2.2.2]
  exact out_eq_result m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
